-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x163842x64 : Shape := ⟨3, ![2, 163842, 64]⟩
abbrev S64x448 : Shape := ⟨2, ![64, 448]⟩
abbrev S64 : Shape := ⟨1, ![64]⟩
abbrev S1146894 : Shape := ⟨1, ![1146894]⟩
abbrev S_ : Shape := ⟨0, ![]⟩

class Facts : Prop where
  bcast_S_S2x163842x64 : S_.BroadcastsInDim S2x163842x64 (![] : Fin 0 → Fin S2x163842x64.rank)
  reducesTo_S2x163842x64_S_d0_1_2 : S2x163842x64.ReducesTo [0, 1, 2] S_
  h_S_ : 0 < S_.numel
  bcast_S_S64x448 : S_.BroadcastsInDim S64x448 (![] : Fin 0 → Fin S64x448.rank)
  reducesTo_S64x448_S_d0_1 : S64x448.ReducesTo [0, 1] S_
  bcast_S_S64 : S_.BroadcastsInDim S64 (![] : Fin 0 → Fin S64.rank)
  reducesTo_S64_S_d0 : S64.ReducesTo [0] S_

variable [Facts]

def fn {F : FTy → Type} [FloatOps F] (main_arg0 : FVec F S2x163842x64 .f32) (main_arg1 : FVec F S64x448 .f32) (main_arg2 : FVec F S64 .f32) (main_arg3 : IVec S1146894 32) : IVec S_ 1 :=
  let main_v0 : FVec F S2x163842x64 .f32 := Host.absf main_arg0
  let main_cst : FVec F S_ .f32 := constant S_ .f32 0x7F800000#32
  let main_v1 : FVec F S2x163842x64 .f32 := broadcastInDim S2x163842x64 ![] bcast_S_S2x163842x64 main_cst
  let main_v2 : IVec S2x163842x64 1 := cmpf .olt main_v0 main_v1
  let main_c : IVec S_ 1 := constantI S_ 1 1#1
  let main_v3 : IVec S_ 1 := (fun x v => Host.reduce IntOp.andi x v reducesTo_S2x163842x64_S_d0_1_2 h_S_) main_v2 main_c
  let main_v4 : FVec F S64x448 .f32 := Host.absf main_arg1
  let main_cst_0 : FVec F S_ .f32 := constant S_ .f32 0x7F800000#32
  let main_v5 : FVec F S64x448 .f32 := broadcastInDim S64x448 ![] bcast_S_S64x448 main_cst_0
  let main_v6 : IVec S64x448 1 := cmpf .olt main_v4 main_v5
  let main_c_1 : IVec S_ 1 := constantI S_ 1 1#1
  let main_v7 : IVec S_ 1 := (fun x v => Host.reduce IntOp.andi x v reducesTo_S64x448_S_d0_1 h_S_) main_v6 main_c_1
  let main_v8 : IVec S_ 1 := andi main_v3 main_v7
  let main_v9 : FVec F S64 .f32 := Host.absf main_arg2
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  main_v13
-- ==== Kernel.lean ====
abbrev S2x163842x64 : Shape := ⟨3, ![2, 163842, 64]⟩
abbrev S64x448 : Shape := ⟨2, ![64, 448]⟩
abbrev S64 : Shape := ⟨1, ![64]⟩
abbrev S1146894 : Shape := ⟨1, ![1146894]⟩
abbrev S2x64x163842 : Shape := ⟨3, ![2, 64, 163842]⟩
abbrev S_ : Shape := ⟨0, ![]⟩
abbrev S1146894x1 : Shape := ⟨2, ![1146894, 1]⟩
abbrev S1 : Shape := ⟨1, ![1]⟩
abbrev S1x1 : Shape := ⟨2, ![1, 1]⟩
abbrev S2x64x1146894 : Shape := ⟨3, ![2, 64, 1146894]⟩
abbrev S2x163842x448 : Shape := ⟨3, ![2, 163842, 448]⟩
abbrev S448x64 : Shape := ⟨2, ![448, 64]⟩
abbrev S1x4096x448 : Shape := ⟨3, ![1, 4096, 448]⟩
abbrev S1x4096x64 : Shape := ⟨3, ![1, 4096, 64]⟩
abbrev S4096x448 : Shape := ⟨2, ![4096, 448]⟩
abbrev S4096x64 : Shape := ⟨2, ![4096, 64]⟩
abbrev S1x64 : Shape := ⟨2, ![1, 64]⟩

abbrev nBuf : Space → Nat
  | .hbm => 31
  | .vmem => 6
  | .smem => 0
  | _ => 0

abbrev bufTy : (tb : Table) → Fin (tcTables nBuf tb) → BufTy
  | .hbm, ⟨0, _⟩ => ⟨S2x163842x64, .f32⟩
  | .hbm, ⟨1, _⟩ => ⟨S64x448, .f32⟩
  | .hbm, ⟨2, _⟩ => ⟨S64, .f32⟩
  | .hbm, ⟨3, _⟩ => ⟨S1146894, .i32⟩
  | .hbm, ⟨4, _⟩ => ⟨S2x64x163842, .f32⟩
  | .hbm, ⟨5, _⟩ => ⟨S_, .i32⟩
  | .hbm, ⟨6, _⟩ => ⟨S1146894, .i32⟩
  | .hbm, ⟨7, _⟩ => ⟨S1146894, .i1⟩
  | .hbm, ⟨8, _⟩ => ⟨S_, .i32⟩
  | .hbm, ⟨9, _⟩ => ⟨S1146894, .i32⟩
  | .hbm, ⟨10, _⟩ => ⟨S1146894, .i32⟩
  | .hbm, ⟨11, _⟩ => ⟨S1146894, .i32⟩
  | .hbm, ⟨12, _⟩ => ⟨S1146894x1, .i32⟩
  | .hbm, ⟨13, _⟩ => ⟨S1, .i32⟩
  | .hbm, ⟨14, _⟩ => ⟨S_, .i32⟩
  | .hbm, ⟨15, _⟩ => ⟨S1146894x1, .i32⟩
  | .hbm, ⟨16, _⟩ => ⟨S1146894x1, .i1⟩
  | .hbm, ⟨17, _⟩ => ⟨S1x1, .i32⟩
  | .hbm, ⟨18, _⟩ => ⟨S1146894x1, .i32⟩
  | .hbm, ⟨19, _⟩ => ⟨S1146894x1, .i1⟩
  | .hbm, ⟨20, _⟩ => ⟨S1146894x1, .i1⟩
  | .hbm, ⟨21, _⟩ => ⟨S_, .i1⟩
  | .hbm, ⟨22, _⟩ => ⟨S1146894, .i1⟩
  | .hbm, ⟨23, _⟩ => ⟨S2x64x1146894, .f32⟩
  | .hbm, ⟨24, _⟩ => ⟨S2x64x1146894, .i1⟩
  | .hbm, ⟨25, _⟩ => ⟨S_, .f32⟩
  | .hbm, ⟨26, _⟩ => ⟨S2x64x1146894, .f32⟩
  | .hbm, ⟨27, _⟩ => ⟨S2x64x1146894, .f32⟩
  | .hbm, ⟨28, _⟩ => ⟨S2x163842x448, .f32⟩
  | .hbm, ⟨29, _⟩ => ⟨S448x64, .f32⟩
  | .hbm, ⟨30, _⟩ => ⟨S2x163842x64, .f32⟩
  | .local _ .vmem, ⟨0, _⟩ => ⟨S1x4096x448, .f32⟩
  | .local _ .vmem, ⟨1, _⟩ => ⟨S1x4096x448, .f32⟩
  | .local _ .vmem, ⟨2, _⟩ => ⟨S448x64, .f32⟩
  | .local _ .vmem, ⟨3, _⟩ => ⟨S64, .f32⟩
  | .local _ .vmem, ⟨4, _⟩ => ⟨S1x4096x64, .f32⟩
  | .local _ .vmem, ⟨5, _⟩ => ⟨S1x4096x64, .f32⟩
  | _, _ => ⟨S2x163842x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_call0_c : Ref sig .tc := ⟨.hbm, 5, rfl⟩
abbrev main_call0_v0 : Ref sig .tc := ⟨.hbm, 6, rfl⟩
abbrev main_call0_v1 : Ref sig .tc := ⟨.hbm, 7, rfl⟩
abbrev main_call0_c_0 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_call0_v5 : Ref sig .tc := ⟨.hbm, 12, rfl⟩
abbrev main_call0_c_1 : Ref sig .tc := ⟨.hbm, 13, rfl⟩
abbrev main_call0_c_2 : Ref sig .tc := ⟨.hbm, 14, rfl⟩
abbrev main_call0_v6 : Ref sig .tc := ⟨.hbm, 15, rfl⟩
abbrev main_call0_v7 : Ref sig .tc := ⟨.hbm, 16, rfl⟩
abbrev main_call0_v8 : Ref sig .tc := ⟨.hbm, 17, rfl⟩
abbrev main_call0_v9 : Ref sig .tc := ⟨.hbm, 18, rfl⟩
abbrev main_call0_v10 : Ref sig .tc := ⟨.hbm, 19, rfl⟩
abbrev main_call0_v11 : Ref sig .tc := ⟨.hbm, 20, rfl⟩
abbrev main_call0_c_3 : Ref sig .tc := ⟨.hbm, 21, rfl⟩
abbrev main_call0_v12 : Ref sig .tc := ⟨.hbm, 22, rfl⟩
abbrev main_call0_v13 : Ref sig .tc := ⟨.hbm, 23, rfl⟩
abbrev main_call0_v14 : Ref sig .tc := ⟨.hbm, 24, rfl⟩
abbrev main_call0_cst : Ref sig .tc := ⟨.hbm, 25, rfl⟩
abbrev main_call0_v15 : Ref sig .tc := ⟨.hbm, 26, rfl⟩
abbrev main_v1 : Ref sig .tc := ⟨.hbm, 27, rfl⟩
abbrev main_v2 : Ref sig .tc := ⟨.hbm, 28, rfl⟩
abbrev main_v3 : Ref sig .tc := ⟨.hbm, 29, rfl⟩
abbrev main_v4 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![2, 41], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x4096x448 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S448x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x4096x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  transposes_S2x163842x64_S2x64x163842_0_2_1 : S2x163842x64.Transposes [0, 2, 1] S2x64x163842
  bcast_S_S1146894 : S_.BroadcastsInDim S1146894 (![] : Fin 0 → Fin S1146894.rank)
  bcast_S1146894_S1146894x1_0 : S1146894.BroadcastsInDim S1146894x1 (![0] : Fin 1 → Fin S1146894x1.rank)
  bcast_S_S1146894x1 : S_.BroadcastsInDim S1146894x1 (![] : Fin 0 → Fin S1146894x1.rank)
  bcast_S1_S1x1_1 : S1.BroadcastsInDim S1x1 (![1] : Fin 1 → Fin S1x1.rank)
  bcast_S1x1_S1146894x1_0_1 : S1x1.BroadcastsInDim S1146894x1 (![0, 1] : Fin 2 → Fin S1146894x1.rank)
  reducesTo_S1146894x1_S1146894_d1 : S1146894x1.ReducesTo [1] S1146894
  h_S_ : 0 < S_.numel
  bcast_S1146894_S2x64x1146894_2 : S1146894.BroadcastsInDim S2x64x1146894 (![2] : Fin 1 → Fin S2x64x1146894.rank)
  bcast_S_S2x64x1146894 : S_.BroadcastsInDim S2x64x1146894 (![] : Fin 0 → Fin S2x64x1146894.rank)
  shapeCasts_S2x64x1146894_S2x163842x448 : S2x64x1146894.ShapeCasts S2x163842x448
  transposes_S64x448_S448x64_1_0 : S64x448.Transposes [1, 0] S448x64
  inb_S1x4096x448_S1x4096x448_0_0_0 : ∀ a, (![0, 0, 0] : Fin 3 → Nat) a + S1x4096x448.size a ≤ S1x4096x448.size a
  h_S1x4096x448 : 0 < S1x4096x448.numel
  shapeCasts_S1x4096x448_S4096x448 : S1x4096x448.ShapeCasts S4096x448
  bitsLt_bf16_f32 : FTy.bits .bf16 < FTy.bits .f32
  inb_S448x64_S448x64_0_0 : ∀ a, (![0, 0] : Fin 2 → Nat) a + S448x64.size a ≤ S448x64.size a
  h_S448x64 : 0 < S448x64.numel
  shapeCasts_S448x64_S448x64 : S448x64.ShapeCasts S448x64
  inb_S64_S64_0 : ∀ a, (![0] : Fin 1 → Nat) a + S64.size a ≤ S64.size a
  h_S64 : 0 < S64.numel
  shapeCasts_S64_S1x64 : S64.ShapeCasts S1x64
  broadcasts_S1x64_S4096x64 : S1x64.Broadcasts S4096x64
  inb_S1x4096x64_S1x4096x64_0_0_0 : ∀ a, (![0, 0, 0] : Fin 3 → Nat) a + S1x4096x64.size a ≤ S1x4096x64.size a
  h_S1x4096x64 : 0 < S1x4096x64.numel
  shapeCasts_S1x4096x64_S4096x64 : S1x4096x64.ShapeCasts S4096x64
  shapeCasts_S4096x64_S1x4096x64 : S4096x64.ShapeCasts S1x4096x64
  gather_S2x64x163842_S1146894x1_S2x64x1146894_01_2_n_n_2_1_2641_wf : GatherDims.WF S2x64x163842 S1146894x1 S2x64x1146894 [0, 1] [2] [] [2] [] 1 ![2, 64, 1]
  dot_S4096x448_S448x64_S4096x64_1_0_0_1_n_n_wf : DotDims.WF S4096x448 S448x64 S4096x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hstart0_0 : ∀ (i : grid0.Coords) a, cc0_transform_0 i a * S1x4096x448.size a < S2x163842x448.size a
  hwx0_0 : ∀ i : grid0.Coords, EltTy.bits .f32 = 32 ∨ (Rect.unit (s := S2x163842x448) (fun a => cc0_transform_0 i a * S1x4096x448.size a) (fun a => (Pipeline.Clip.of (cc0_transform_0 i a) (S1x4096x448.size a) (S2x163842x448.size a)).extent (S1x4096x448.size a)) fun a => Pipeline.Clip.inb (Pipeline.Clip.ok_of (hstart0_0 i a))).WholeWords (EltTy.packing .f32)
  hwxs0_0 : ∀ i : grid0.Coords, EltTy.bits .f32 = 32 ∨ (Rect.unit (s := S1x4096x448) (fun _ => 0) (fun a => (Pipeline.Clip.of (cc0_transform_0 i a) (S1x4096x448.size a) (S2x163842x448.size a)).extent (S1x4096x448.size a)) fun a => (Nat.zero_add _).trans_le (Pipeline.Clip.extent_le (Pipeline.Clip.ok_of (hstart0_0 i a)))).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S448x64.size a ≤ S448x64.size a
  hwx0_1 : ∀ i : grid0.Coords, EltTy.bits .f32 = 32 ∨ (Rect.block (s := S448x64) S448x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64.size a ≤ S64.size a
  hwx0_2 : ∀ i : grid0.Coords, EltTy.bits .f32 = 32 ∨ (Rect.block (s := S64) S64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hstart0_3 : ∀ (i : grid0.Coords) a, cc0_transform_3 i a * S1x4096x64.size a < S2x163842x64.size a
  hwx0_3 : ∀ i : grid0.Coords, EltTy.bits .f32 = 32 ∨ (Rect.unit (s := S2x163842x64) (fun a => cc0_transform_3 i a * S1x4096x64.size a) (fun a => (Pipeline.Clip.of (cc0_transform_3 i a) (S1x4096x64.size a) (S2x163842x64.size a)).extent (S1x4096x64.size a)) fun a => Pipeline.Clip.inb (Pipeline.Clip.ok_of (hstart0_3 i a))).WholeWords (EltTy.packing .f32)
  hwxs0_3 : ∀ i : grid0.Coords, EltTy.bits .f32 = 32 ∨ (Rect.unit (s := S1x4096x64) (fun _ => 0) (fun a => (Pipeline.Clip.of (cc0_transform_3 i a) (S1x4096x64.size a) (S2x163842x64.size a)).extent (S1x4096x64.size a)) fun a => (Nat.zero_add _).trans_le (Pipeline.Clip.extent_le (Pipeline.Clip.ok_of (hstart0_3 i a)))).WholeWords (EltTy.packing .f32)

variable [Facts₀]

def gather_S2x64x163842_S1146894x1_S2x64x1146894_01_2_n_n_2_1_2641 : GatherDims S2x64x163842 S1146894x1 S2x64x1146894 where
  offsetDims := [0, 1]
  collapsedSliceDims := [2]
  operandBatchingDims := []
  startIndicesBatchingDims := []
  startIndexMap := [2]
  indexVectorDim := 1
  sliceSizes := ![2, 64, 1]
  wf := gather_S2x64x163842_S1146894x1_S2x64x1146894_01_2_n_n_2_1_2641_wf
def dot_S4096x448_S448x64_S4096x64_1_0_0_1_n_n : DotDims S4096x448 S448x64 S4096x64 where
  lhsContracting := [1]
  rhsContracting := [0]
  lhsNonContracting := [0]
  rhsNonContracting := [1]
  lhsBatch := []
  rhsBatch := []
  wf := dot_S4096x448_S448x64_S4096x64_1_0_0_1_n_n_wf

abbrev win0_0 : Pipeline.Window sig grid0 :=
  Pipeline.Window.ofSpecClip (Memref.whole main_v2) S1x4096x448.size cc0_transform_0 reads0_0 false false 2 stage0_0 sem0_0
    hrank0 hreads0_0 hstart0_0 nbuf0_0 (Memref.isWhole_whole _) hwx0_0 hwxs0_0 hstage0_0

abbrev win0_1 : Pipeline.Window sig grid0 :=
  Pipeline.Window.ofSpec (Memref.whole main_v3) S448x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpecClip (Memref.whole main_v4) S1x4096x64.size cc0_transform_3 reads0_3 true false 2 stage0_3 sem0_3
    hrank0 hreads0_3 hstart0_3 nbuf0_3 (Memref.isWhole_whole _) hwx0_3 hwxs0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S2x163842x64 : Shape := ⟨3, ![2, 163842, 64]⟩
abbrev S64x448 : Shape := ⟨2, ![64, 448]⟩
abbrev S64 : Shape := ⟨1, ![64]⟩
abbrev S1146894 : Shape := ⟨1, ![1146894]⟩
abbrev S2x64x163842 : Shape := ⟨3, ![2, 64, 163842]⟩
abbrev S_ : Shape := ⟨0, ![]⟩
abbrev S1146894x1 : Shape := ⟨2, ![1146894, 1]⟩
abbrev S1 : Shape := ⟨1, ![1]⟩
abbrev S1x1 : Shape := ⟨2, ![1, 1]⟩
abbrev S2x64x1146894 : Shape := ⟨3, ![2, 64, 1146894]⟩
abbrev S2x163842x448 : Shape := ⟨3, ![2, 163842, 448]⟩
abbrev S1x1x64 : Shape := ⟨3, ![1, 1, 64]⟩

abbrev nBuf : Space → Nat
  | .hbm => 33
  | .vmem => 0
  | .smem => 0
  | _ => 0

abbrev bufTy : (tb : Table) → Fin (tcTables nBuf tb) → BufTy
  | .hbm, ⟨0, _⟩ => ⟨S2x163842x64, .f32⟩
  | .hbm, ⟨1, _⟩ => ⟨S64x448, .f32⟩
  | .hbm, ⟨2, _⟩ => ⟨S64, .f32⟩
  | .hbm, ⟨3, _⟩ => ⟨S1146894, .i32⟩
  | .hbm, ⟨4, _⟩ => ⟨S2x64x163842, .f32⟩
  | .hbm, ⟨5, _⟩ => ⟨S_, .i32⟩
  | .hbm, ⟨6, _⟩ => ⟨S1146894, .i32⟩
  | .hbm, ⟨7, _⟩ => ⟨S1146894, .i1⟩
  | .hbm, ⟨8, _⟩ => ⟨S_, .i32⟩
  | .hbm, ⟨9, _⟩ => ⟨S1146894, .i32⟩
  | .hbm, ⟨10, _⟩ => ⟨S1146894, .i32⟩
  | .hbm, ⟨11, _⟩ => ⟨S1146894, .i32⟩
  | .hbm, ⟨12, _⟩ => ⟨S1146894x1, .i32⟩
  | .hbm, ⟨13, _⟩ => ⟨S1, .i32⟩
  | .hbm, ⟨14, _⟩ => ⟨S_, .i32⟩
  | .hbm, ⟨15, _⟩ => ⟨S1146894x1, .i32⟩
  | .hbm, ⟨16, _⟩ => ⟨S1146894x1, .i1⟩
  | .hbm, ⟨17, _⟩ => ⟨S1x1, .i32⟩
  | .hbm, ⟨18, _⟩ => ⟨S1146894x1, .i32⟩
  | .hbm, ⟨19, _⟩ => ⟨S1146894x1, .i1⟩
  | .hbm, ⟨20, _⟩ => ⟨S1146894x1, .i1⟩
  | .hbm, ⟨21, _⟩ => ⟨S_, .i1⟩
  | .hbm, ⟨22, _⟩ => ⟨S1146894, .i1⟩
  | .hbm, ⟨23, _⟩ => ⟨S2x64x1146894, .f32⟩
  | .hbm, ⟨24, _⟩ => ⟨S2x64x1146894, .i1⟩
  | .hbm, ⟨25, _⟩ => ⟨S_, .f32⟩
  | .hbm, ⟨26, _⟩ => ⟨S2x64x1146894, .f32⟩
  | .hbm, ⟨27, _⟩ => ⟨S2x64x1146894, .f32⟩
  | .hbm, ⟨28, _⟩ => ⟨S2x163842x448, .f32⟩
  | .hbm, ⟨29, _⟩ => ⟨S2x163842x64, .f32⟩
  | .hbm, ⟨30, _⟩ => ⟨S1x1x64, .f32⟩
  | .hbm, ⟨31, _⟩ => ⟨S2x163842x64, .f32⟩
  | .hbm, ⟨32, _⟩ => ⟨S2x163842x64, .f32⟩
  | _, _ => ⟨S2x163842x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_call0_c : Ref sig .tc := ⟨.hbm, 5, rfl⟩
abbrev main_call0_v0 : Ref sig .tc := ⟨.hbm, 6, rfl⟩
abbrev main_call0_v1 : Ref sig .tc := ⟨.hbm, 7, rfl⟩
abbrev main_call0_c_0 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_call0_v5 : Ref sig .tc := ⟨.hbm, 12, rfl⟩
abbrev main_call0_c_1 : Ref sig .tc := ⟨.hbm, 13, rfl⟩
abbrev main_call0_c_2 : Ref sig .tc := ⟨.hbm, 14, rfl⟩
abbrev main_call0_v6 : Ref sig .tc := ⟨.hbm, 15, rfl⟩
abbrev main_call0_v7 : Ref sig .tc := ⟨.hbm, 16, rfl⟩
abbrev main_call0_v8 : Ref sig .tc := ⟨.hbm, 17, rfl⟩
abbrev main_call0_v9 : Ref sig .tc := ⟨.hbm, 18, rfl⟩
abbrev main_call0_v10 : Ref sig .tc := ⟨.hbm, 19, rfl⟩
abbrev main_call0_v11 : Ref sig .tc := ⟨.hbm, 20, rfl⟩
abbrev main_call0_c_3 : Ref sig .tc := ⟨.hbm, 21, rfl⟩
abbrev main_call0_v12 : Ref sig .tc := ⟨.hbm, 22, rfl⟩
abbrev main_call0_v13 : Ref sig .tc := ⟨.hbm, 23, rfl⟩
abbrev main_call0_v14 : Ref sig .tc := ⟨.hbm, 24, rfl⟩
abbrev main_call0_cst : Ref sig .tc := ⟨.hbm, 25, rfl⟩
abbrev main_call0_v15 : Ref sig .tc := ⟨.hbm, 26, rfl⟩
abbrev main_v1 : Ref sig .tc := ⟨.hbm, 27, rfl⟩
abbrev main_v2 : Ref sig .tc := ⟨.hbm, 28, rfl⟩
abbrev main_v3 : Ref sig .tc := ⟨.hbm, 29, rfl⟩
abbrev main_v4 : Ref sig .tc := ⟨.hbm, 30, rfl⟩
abbrev main_v5 : Ref sig .tc := ⟨.hbm, 31, rfl⟩
abbrev main_v6 : Ref sig .tc := ⟨.hbm, 32, rfl⟩

abbrev nD : Nat := 1
abbrev τ : Topo := Topo.v7x

variable {F : FTy → Type} [FloatOps F]

class Facts₀ : Prop where
  transposes_S2x163842x64_S2x64x163842_0_2_1 : S2x163842x64.Transposes [0, 2, 1] S2x64x163842
  bcast_S_S1146894 : S_.BroadcastsInDim S1146894 (![] : Fin 0 → Fin S1146894.rank)
  bcast_S1146894_S1146894x1_0 : S1146894.BroadcastsInDim S1146894x1 (![0] : Fin 1 → Fin S1146894x1.rank)
  bcast_S_S1146894x1 : S_.BroadcastsInDim S1146894x1 (![] : Fin 0 → Fin S1146894x1.rank)
  bcast_S1_S1x1_1 : S1.BroadcastsInDim S1x1 (![1] : Fin 1 → Fin S1x1.rank)
  bcast_S1x1_S1146894x1_0_1 : S1x1.BroadcastsInDim S1146894x1 (![0, 1] : Fin 2 → Fin S1146894x1.rank)
  reducesTo_S1146894x1_S1146894_d1 : S1146894x1.ReducesTo [1] S1146894
  h_S_ : 0 < S_.numel
  bcast_S1146894_S2x64x1146894_2 : S1146894.BroadcastsInDim S2x64x1146894 (![2] : Fin 1 → Fin S2x64x1146894.rank)
  bcast_S_S2x64x1146894 : S_.BroadcastsInDim S2x64x1146894 (![] : Fin 0 → Fin S2x64x1146894.rank)
  shapeCasts_S2x64x1146894_S2x163842x448 : S2x64x1146894.ShapeCasts S2x163842x448
  bcast_S64_S1x1x64_2 : S64.BroadcastsInDim S1x1x64 (![2] : Fin 1 → Fin S1x1x64.rank)
  bcast_S1x1x64_S2x163842x64_0_1_2 : S1x1x64.BroadcastsInDim S2x163842x64 (![0, 1, 2] : Fin 3 → Fin S2x163842x64.rank)
  gather_S2x64x163842_S1146894x1_S2x64x1146894_01_2_n_n_2_1_2641_wf : GatherDims.WF S2x64x163842 S1146894x1 S2x64x1146894 [0, 1] [2] [] [2] [] 1 ![2, 64, 1]
  dot_S2x163842x448_S64x448_S2x163842x64_2_1_01_0_n_n_wf : DotDims.WF S2x163842x448 S64x448 S2x163842x64 [2] [1] [0, 1] [0] [] []

variable [Facts₀]

def gather_S2x64x163842_S1146894x1_S2x64x1146894_01_2_n_n_2_1_2641 : GatherDims S2x64x163842 S1146894x1 S2x64x1146894 where
  offsetDims := [0, 1]
  collapsedSliceDims := [2]
  operandBatchingDims := []
  startIndicesBatchingDims := []
  startIndexMap := [2]
  indexVectorDim := 1
  sliceSizes := ![2, 64, 1]
  wf := gather_S2x64x163842_S1146894x1_S2x64x1146894_01_2_n_n_2_1_2641_wf
def dot_S2x163842x448_S64x448_S2x163842x64_2_1_01_0_n_n : DotDims S2x163842x448 S64x448 S2x163842x64 where
  lhsContracting := [2]
  rhsContracting := [1]
  lhsNonContracting := [0, 1]
  rhsNonContracting := [0]
  lhsBatch := []
  rhsBatch := []
  wf := dot_S2x163842x448_S64x448_S2x163842x64_2_1_01_0_n_n_wf

class Facts : Prop extends Facts₀ where

variable [Facts]
-- ==== Proof.BodyK.lean ====
/-
  One grid point of the linear layer's kernel, on the staging buffers.

  The body reads its three input buffers whole — a block of 4096 rows of 448 entries, the 448×64 weights,
  the 64 bias entries —, reads the result's buffer (a value it never uses), and overwrites the result's
  buffer whole with one value: the product of the rows with the weights plus the bias, a function of the
  three values read.  Nothing else is touched.  So after the body the input buffers hold what they held and
  the result's buffer holds that function of them, whatever it held before.
-/
import proofs.«139738_j45500883534541_1_alg».proof.Proof.Gen.Kernel.Frame
import proofs.«139738_j45500883534541_1_alg».proof.Proof.Gen.Kernel.Skeleton
import Idealize.ShloMosaic.Lib.Pipeline.Kit
import Idealize.ShloMosaic.Lib.Tactic

noncomputable section

namespace Cert.Kernel.Body

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf kernel pipe)

variable {F : FTy → Type} [FloatOps F]

local notation "𝕄" => MT nD τ sig Unit (Elt F) ℕ (UR sig nD τ) ℕ

/-- The kernel calls no variant of itself. -/
abbrev 𝒱₀ : Variants := Variants.none

/-- The body at a grid point, on staging buffer `s0` of the rows' window, the one buffer of the weights' and of the
    bias's windows, and staging buffer `s3` of the result's: from the four buffers at any contents `X0 … X3` it ends
    with the first three unchanged and the result's at the rows' product with the weights plus the bias. -/
theorem sound_body (c : Dev nD) (E : Set ℕ) (i : grid0.Coords) (s0 : Fin 2) (s1 : Fin 1) (s2 : Fin 1) (s3 : Fin 2)
    (X0 : S1x4096x448.Idx → Elt F .f32) (X1 : S448x64.Idx → Elt F .f32) (X2 : S64.Idx → Elt F .f32)
    (X3 : S1x4096x64.Idx → Elt F .f32) (K : PUnit → sProp 𝕄) :
    iprop((owns (c : Thread nD τ) (stage0_0 s0) fullShare X0 ∗ owns (c : Thread nD τ) (stage0_1 s1) fullShare X1
            ∗ owns (c : Thread nD τ) (stage0_2 s2) fullShare X2 ∗ owns (c : Thread nD τ) (stage0_3 s3) fullShare X3)
          ∗ (iprop(owns (c : Thread nD τ) (stage0_0 s0) fullShare X0 ∗ owns (c : Thread nD τ) (stage0_1 s1) fullShare X1
                  ∗ owns (c : Thread nD τ) (stage0_2 s2) fullShare X2
                  ∗ owns (c : Thread nD τ) (stage0_3 s3) fullShare (k0_pay1 X0 X1 X2)) -∗ K ⟨⟩))
      ⊢ wp frame (wpE (defs₀ (F := F)) 𝒱₀ c none) E
          (cc0__linear_kernel i (stage0_0 s0) (hstage0_0 s0) (stage0_1 s1) (hstage0_1 s1) (stage0_2 s2) (hstage0_2 s2)
            (stage0_3 s3) (hstage0_3 s3)) K := by
  -- every access is at offset zero with the buffer's own extents, the whole buffer: a load reads the contents and an
  -- unmasked store replaces them
  have hz3 : (![0, 0, 0] : Fin 3 → Nat) = fun _ => 0 := funext fun a => by fin_cases a <;> rfl
  have hz2 : (![0, 0] : Fin 2 → Nat) = fun _ => 0 := funext fun a => by fin_cases a <;> rfl
  have hz1 : (![0] : Fin 1 → Nat) = fun _ => 0 := funext fun a => by fin_cases a <;> rfl
  fin_cases s0 <;> fin_cases s1 <;> fin_cases s2 <;> fin_cases s3
  · -- rows' buffer `cc0_stg0_0`, the weights' `cc0_stg1_0`, the bias's `cc0_stg2_0`, the result's `cc0_stg3_0`
    have hr0 : (Memref.whole cc0_stg0_0 : Memref sig .tc _ _ _).view.readAt (Elt F) (Rect.unit (s := S1x4096x448) ![0, 0, 0] S1x4096x448.size
        inb_S1x4096x448_S1x4096x448_0_0_0).toLoadRect = id := funext (Memref.readAt_unit_zero (Elt F) cc0_stg0_0 hz3 _)
    have hr1 : (Memref.whole cc0_stg1_0 : Memref sig .tc _ _ _).view.readAt (Elt F) (Rect.unit (s := S448x64) ![0, 0] S448x64.size
        inb_S448x64_S448x64_0_0).toLoadRect = id := funext (Memref.readAt_unit_zero (Elt F) cc0_stg1_0 hz2 _)
    have hr2 : (Memref.whole cc0_stg2_0 : Memref sig .tc _ _ _).view.readAt (Elt F) (Rect.unit (s := S64) ![0] S64.size
        inb_S64_S64_0).toLoadRect = id := funext (Memref.readAt_unit_zero (Elt F) cc0_stg2_0 hz1 _)
    have hw3 : ∀ f w, (((Memref.whole cc0_stg3_0).access (Rect.unit (s := S1x4096x64) ![0, 0, 0] S1x4096x64.size inb_S1x4096x64_S1x4096x64_0_0_0)) :
        View sig .tc _ _ _).write (Elt F) f w Finset.univ = w := Memref.write_access_unit_zero_univ (Elt F) cc0_stg3_0 hz3 _
    simp only [owns_whole_eq, cc0__linear_kernel_eq_skeleton]; unfold cc0__linear_kernel_skel
    simp only [Prog.lift, Prog.bind_op, Prog.bind_ret]
    iintro ⟨⟨⟨%f0, %hf0, H0⟩, ⟨%f1, %hf1, H1⟩, ⟨%f2, %hf2, H2⟩, ⟨%f3, %hf3, H3⟩⟩, Hk⟩
    sl_steps
    iapply Hk
    rw [hr0, hr1, hr2, hw3]
    isplitl [H0]
    · iexists f0; isplitr; · ipureintro; exact hf0
      iexact H0
    isplitl [H1]
    · iexists f1; isplitr; · ipureintro; exact hf1
      iexact H1
    isplitl [H2]
    · iexists f2; isplitr; · ipureintro; exact hf2
      iexact H2
    · iexists k0_pay1 f0 f1 f2; isplitr; · ipureintro; rw [hf0, hf1, hf2]
      iexact H3
  · -- rows' buffer `cc0_stg0_0`, the weights' `cc0_stg1_0`, the bias's `cc0_stg2_0`, the result's `cc0_stg3_1`
    have hr0 : (Memref.whole cc0_stg0_0 : Memref sig .tc _ _ _).view.readAt (Elt F) (Rect.unit (s := S1x4096x448) ![0, 0, 0] S1x4096x448.size
        inb_S1x4096x448_S1x4096x448_0_0_0).toLoadRect = id := funext (Memref.readAt_unit_zero (Elt F) cc0_stg0_0 hz3 _)
    have hr1 : (Memref.whole cc0_stg1_0 : Memref sig .tc _ _ _).view.readAt (Elt F) (Rect.unit (s := S448x64) ![0, 0] S448x64.size
        inb_S448x64_S448x64_0_0).toLoadRect = id := funext (Memref.readAt_unit_zero (Elt F) cc0_stg1_0 hz2 _)
    have hr2 : (Memref.whole cc0_stg2_0 : Memref sig .tc _ _ _).view.readAt (Elt F) (Rect.unit (s := S64) ![0] S64.size
        inb_S64_S64_0).toLoadRect = id := funext (Memref.readAt_unit_zero (Elt F) cc0_stg2_0 hz1 _)
    have hw3 : ∀ f w, (((Memref.whole cc0_stg3_1).access (Rect.unit (s := S1x4096x64) ![0, 0, 0] S1x4096x64.size inb_S1x4096x64_S1x4096x64_0_0_0)) :
        View sig .tc _ _ _).write (Elt F) f w Finset.univ = w := Memref.write_access_unit_zero_univ (Elt F) cc0_stg3_1 hz3 _
    simp only [owns_whole_eq, cc0__linear_kernel_eq_skeleton]; unfold cc0__linear_kernel_skel
    simp only [Prog.lift, Prog.bind_op, Prog.bind_ret]
    iintro ⟨⟨⟨%f0, %hf0, H0⟩, ⟨%f1, %hf1, H1⟩, ⟨%f2, %hf2, H2⟩, ⟨%f3, %hf3, H3⟩⟩, Hk⟩
    sl_steps
    iapply Hk
    rw [hr0, hr1, hr2, hw3]
    isplitl [H0]
    · iexists f0; isplitr; · ipureintro; exact hf0
      iexact H0
    isplitl [H1]
    · iexists f1; isplitr; · ipureintro; exact hf1
      iexact H1
    isplitl [H2]
    · iexists f2; isplitr; · ipureintro; exact hf2
      iexact H2
    · iexists k0_pay1 f0 f1 f2; isplitr; · ipureintro; rw [hf0, hf1, hf2]
      iexact H3
  · -- rows' buffer `cc0_stg0_1`, the weights' `cc0_stg1_0`, the bias's `cc0_stg2_0`, the result's `cc0_stg3_0`
    have hr0 : (Memref.whole cc0_stg0_1 : Memref sig .tc _ _ _).view.readAt (Elt F) (Rect.unit (s := S1x4096x448) ![0, 0, 0] S1x4096x448.size
        inb_S1x4096x448_S1x4096x448_0_0_0).toLoadRect = id := funext (Memref.readAt_unit_zero (Elt F) cc0_stg0_1 hz3 _)
    have hr1 : (Memref.whole cc0_stg1_0 : Memref sig .tc _ _ _).view.readAt (Elt F) (Rect.unit (s := S448x64) ![0, 0] S448x64.size
        inb_S448x64_S448x64_0_0).toLoadRect = id := funext (Memref.readAt_unit_zero (Elt F) cc0_stg1_0 hz2 _)
    have hr2 : (Memref.whole cc0_stg2_0 : Memref sig .tc _ _ _).view.readAt (Elt F) (Rect.unit (s := S64) ![0] S64.size
        inb_S64_S64_0).toLoadRect = id := funext (Memref.readAt_unit_zero (Elt F) cc0_stg2_0 hz1 _)
    have hw3 : ∀ f w, (((Memref.whole cc0_stg3_0).access (Rect.unit (s := S1x4096x64) ![0, 0, 0] S1x4096x64.size inb_S1x4096x64_S1x4096x64_0_0_0)) :
        View sig .tc _ _ _).write (Elt F) f w Finset.univ = w := Memref.write_access_unit_zero_univ (Elt F) cc0_stg3_0 hz3 _
    simp only [owns_whole_eq, cc0__linear_kernel_eq_skeleton]; unfold cc0__linear_kernel_skel
    simp only [Prog.lift, Prog.bind_op, Prog.bind_ret]
    iintro ⟨⟨⟨%f0, %hf0, H0⟩, ⟨%f1, %hf1, H1⟩, ⟨%f2, %hf2, H2⟩, ⟨%f3, %hf3, H3⟩⟩, Hk⟩
    sl_steps
    iapply Hk
    rw [hr0, hr1, hr2, hw3]
    isplitl [H0]
    · iexists f0; isplitr; · ipureintro; exact hf0
      iexact H0
    isplitl [H1]
    · iexists f1; isplitr; · ipureintro; exact hf1
      iexact H1
    isplitl [H2]
    · iexists f2; isplitr; · ipureintro; exact hf2
      iexact H2
    · iexists k0_pay1 f0 f1 f2; isplitr; · ipureintro; rw [hf0, hf1, hf2]
      iexact H3
  · -- rows' buffer `cc0_stg0_1`, the weights' `cc0_stg1_0`, the bias's `cc0_stg2_0`, the result's `cc0_stg3_1`
    have hr0 : (Memref.whole cc0_stg0_1 : Memref sig .tc _ _ _).view.readAt (Elt F) (Rect.unit (s := S1x4096x448) ![0, 0, 0] S1x4096x448.size
        inb_S1x4096x448_S1x4096x448_0_0_0).toLoadRect = id := funext (Memref.readAt_unit_zero (Elt F) cc0_stg0_1 hz3 _)
    have hr1 : (Memref.whole cc0_stg1_0 : Memref sig .tc _ _ _).view.readAt (Elt F) (Rect.unit (s := S448x64) ![0, 0] S448x64.size
        inb_S448x64_S448x64_0_0).toLoadRect = id := funext (Memref.readAt_unit_zero (Elt F) cc0_stg1_0 hz2 _)
    have hr2 : (Memref.whole cc0_stg2_0 : Memref sig .tc _ _ _).view.readAt (Elt F) (Rect.unit (s := S64) ![0] S64.size
        inb_S64_S64_0).toLoadRect = id := funext (Memref.readAt_unit_zero (Elt F) cc0_stg2_0 hz1 _)
    have hw3 : ∀ f w, (((Memref.whole cc0_stg3_1).access (Rect.unit (s := S1x4096x64) ![0, 0, 0] S1x4096x64.size inb_S1x4096x64_S1x4096x64_0_0_0)) :
        View sig .tc _ _ _).write (Elt F) f w Finset.univ = w := Memref.write_access_unit_zero_univ (Elt F) cc0_stg3_1 hz3 _
    simp only [owns_whole_eq, cc0__linear_kernel_eq_skeleton]; unfold cc0__linear_kernel_skel
    simp only [Prog.lift, Prog.bind_op, Prog.bind_ret]
    iintro ⟨⟨⟨%f0, %hf0, H0⟩, ⟨%f1, %hf1, H1⟩, ⟨%f2, %hf2, H2⟩, ⟨%f3, %hf3, H3⟩⟩, Hk⟩
    sl_steps
    iapply Hk
    rw [hr0, hr1, hr2, hw3]
    isplitl [H0]
    · iexists f0; isplitr; · ipureintro; exact hf0
      iexact H0
    isplitl [H1]
    · iexists f1; isplitr; · ipureintro; exact hf1
      iexact H1
    isplitl [H2]
    · iexists f2; isplitr; · ipureintro; exact hf2
      iexact H2
    · iexists k0_pay1 f0 f1 f2; isplitr; · ipureintro; rw [hf0, hf1, hf2]
      iexact H3

end Cert.Kernel.Body

end
-- ==== Proof.RunK.lean ====
/-
  The kernel as printed, run over its grid: that it terminates, faults nowhere and leaves its arguments unchanged.

  Nothing is said here of what the result array holds.  The rows of the last block of each batch that lie past the
  array's end are never written back, and what the body computes from the unnamed contents fetched there is not
  needed for this claim: the result's window is handed to the body at any contents and taken back at any contents.
  The input buffers are handed back as they were found.
-/
import proofs.«139738_j45500883534541_1_alg».proof.Proof.BodyK

set_option maxRecDepth 16384

noncomputable section

namespace Cert.Kernel.Run

open Cert.Kernel Cert.Kernel.Gen Cert.Kernel.Body

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationLoose cellOf kernel pipe)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data -/

/-- The rows' block at point `t`: its rows inside the array as fetched, the zero word past the array's end. -/
def rows (c : Dev nD) (t : Fin cfg0.N) : S1x4096x448.Idx → Elt F .f32 :=
  win0_0.fill (grid0.coords t) (fun _ => Scalar.ofBits .f32 0#32) (iblk m c 0 t)

/-- After the body the three input buffers hold their blocks; the result's buffer is not named (the entry below is
    never read). -/
def dats (_ : Fin 1) (c : Dev nD) : Dat τ (Elt F) Unit ℕ (UR sig nD τ) ℕ cfg0 c where
  A w := Gen.V m c (Pipeline.arrRef spec0 w)
  after w t := match w with
    | ⟨0, _⟩ => rows m c t
    | ⟨1, _⟩ => iblk m c 1 t
    | ⟨2, _⟩ => iblk m c 2 t
    | ⟨3, _⟩ => fun _ => Scalar.ofBits .f32 0#32
  Φ _ := Pipeline.ΦA spec0 c
  q _ := fullShare
  owed _ := 0

/-- The result's window is the one left unnamed. -/
abbrev unnamed : Fin cfg0.W → Bool := fun | 0 => false | 1 => false | 2 => false | 3 => true | ⟨_ + 4, h⟩ => absurd h (Nat.not_lt.2 (Nat.le_add_left _ _))

theorem before_0 (c : Dev nD) (t : Fin cfg0.N) (d) :
    (dats m 0 c).before (0 : Fin 4) t d = win0_0.fill (grid0.coords t) d (iblk m c 0 t) := by
  rw [(dats m 0 c).before_fetched 0 t (fetch0_0 t) d]
  unfold Dat.fetched Dat.blockOf iblk
  dsimp only [dats]
theorem before_1 (c : Dev nD) (t : Fin cfg0.N) (d) : (dats m 0 c).before (1 : Fin 4) t d = iblk m c 1 t :=
  before0_1_of m (dats m 0 c) rfl (fun _ => rfl) t d
theorem before_2 (c : Dev nD) (t : Fin cfg0.N) (d) : (dats m 0 c).before (2 : Fin 4) t d = iblk m c 2 t :=
  before0_2_of m (dats m 0 c) rfl (fun _ => rfl) t d

/-! ## The body obligation -/

/-- At every point the body hands the three input buffers back as it found them — which on the rows the fetch moved
    is the block — and the result's buffer at some contents. -/
theorem body_obligation (c : Dev nD) : BodyObligationLoose (dats m 0 c) (defs₀ (F := F)) 𝒱₀ () Set.univ unnamed := fun t => by
  rw [bigSep_W0, bigSep_W0]
  simp only
  rw [show (dats m 0 c).Φ t.succ = (dats m 0 c).Φ t.castSucc from rfl,
    show (dats m 0 c).owesAt () t.succ = (dats m 0 c).owesAt () t.castSucc from rfl]
  iintro ⟨HΦ, Ho, ⟨%d0, H0⟩, ⟨%d1, H1⟩, ⟨%d2, H2⟩, ⟨%X3, H3⟩⟩
  rw [before_0 m c t d0, before_1 m c t d1, before_2 m c t d2]
  iapply (sound_body (F := F) c Set.univ (grid0.coords t) (cfg0.slots t 0) (cfg0.slots t 1) (cfg0.slots t 2) (cfg0.slots t 3)
    (win0_0.fill (grid0.coords t) d0 (iblk m c 0 t)) (iblk m c 1 t) (iblk m c 2 t) X3 _)
  isplitl [H0 H1 H2 H3]
  · isplitl [H0]
    · iexact H0
    isplitl [H1]
    · iexact H1
    isplitl [H2]
    · iexact H2
    · iexact H3
  iintro ⟨H0, H1, H2, H3⟩
  isplitl [HΦ]; · iexact HΦ
  isplitl [Ho]; · iexact Ho
  have hx : win0_0.cut (grid0.coords t) (rows m c t) = iblk m c 0 t := win0_0.cut_fill _ _ _
  isplitl [H0]
  · iexists d0
    change _ ⊢ owns (c : Thread nD τ) (stage0_0 (cfg0.slots t 0)) fullShare (win0_0.fill (grid0.coords t) d0 (win0_0.cut (grid0.coords t) (rows m c t)))
    rw [hx]; try iexact H0
  isplitl [H1]
  · iexact H1
  isplitl [H2]
  · iexact H2
  · iexists _; iexact H3

/-! ## The run and the frame -/

/-- Every weakly fair execution of @main ends, nothing faulting; each input array of the kernel ends as the region
    found it and so does every array the kernel does not touch. -/
theorem run_main : θ_run defs (onTc (τ := τ) (main (F := F))) (s₀ m ρ)
    (RDat.FramePost cfg0 (fun c => (dats m 0 c).toRForget unnamed) (Gen.V m)) :=
  RDat.θ_run_frame cfgs 0 Gen.launch0 defs₀ 𝒱₀ (fun c => (dats m 0 c).toRForget unnamed) m ρ main
    (hbody := fun c => (body_obligation m c).toRForget)
    (hshare := fun c => (dats m 0 c).share_full fun _ => rfl) (howed := fun _ _ => rfl)
    (V := Gen.V m) (hmain := Gen.hmain m 𝒱₀) (hA := fun _ _ => rfl) (hΦ := fun _ _ => rfl)

/-- The four argument arrays end unchanged: the bias is an input window's array, never written; the other three
    are arrays the kernel does not stage, and no host operation before the kernel writes any of the four. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      (show r.2.mem ((c.tc : Thread nD τ).loc main_arg2) = Gen.V m c main_arg2 from
        (congrFun (((dats m 0 c).toRForget unnamed).ArrAt_in (2 : Fin 4) rfl cfg0.N) _).mp ((h c).1 2)).trans (V_main_arg2 m c),
      ((h c).2 main_arg3 (Pipeline.mem_restRefs_of main_arg3 (by decide) (by decide))).trans (V_main_arg3 m c)⟩) (run_main m ρ)

end Cert.Kernel.Run

end
-- ==== Proof.BodyI.lean ====
/-
  One grid point of the linear layer's kernel, on the staging buffers.

  The body reads its three input buffers whole — a block of 4096 rows of 448 entries, the 448×64 weights,
  the 64 bias entries —, reads the result's buffer (a value it never uses), and overwrites the result's
  buffer whole with one value: the product of the rows with the weights plus the bias, a function of the
  three values read.  Nothing else is touched.  So after the body the input buffers hold what they held and
  the result's buffer holds that function of them, whatever it held before.
-/
import proofs.«139738_j45500883534541_1_alg».proof.Proof.Gen.KernelIdeal.Frame
import proofs.«139738_j45500883534541_1_alg».proof.Proof.Gen.KernelIdeal.Skeleton
import Idealize.ShloMosaic.Lib.Pipeline.Kit
import Idealize.ShloMosaic.Lib.Tactic

noncomputable section

namespace Cert.KernelIdeal.Body

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf kernel pipe)

variable {F : FTy → Type} [FloatOps F]

local notation "𝕄" => MT nD τ sig Unit (Elt F) ℕ (UR sig nD τ) ℕ

/-- The kernel calls no variant of itself. -/
abbrev 𝒱₀ : Variants := Variants.none

/-- The body at a grid point, on staging buffer `s0` of the rows' window, the one buffer of the weights' and of the
    bias's windows, and staging buffer `s3` of the result's: from the four buffers at any contents `X0 … X3` it ends
    with the first three unchanged and the result's at the rows' product with the weights plus the bias. -/
theorem sound_body (c : Dev nD) (E : Set ℕ) (i : grid0.Coords) (s0 : Fin 2) (s1 : Fin 1) (s2 : Fin 1) (s3 : Fin 2)
    (X0 : S1x4096x448.Idx → Elt F .f32) (X1 : S448x64.Idx → Elt F .f32) (X2 : S64.Idx → Elt F .f32)
    (X3 : S1x4096x64.Idx → Elt F .f32) (K : PUnit → sProp 𝕄) :
    iprop((owns (c : Thread nD τ) (stage0_0 s0) fullShare X0 ∗ owns (c : Thread nD τ) (stage0_1 s1) fullShare X1
            ∗ owns (c : Thread nD τ) (stage0_2 s2) fullShare X2 ∗ owns (c : Thread nD τ) (stage0_3 s3) fullShare X3)
          ∗ (iprop(owns (c : Thread nD τ) (stage0_0 s0) fullShare X0 ∗ owns (c : Thread nD τ) (stage0_1 s1) fullShare X1
                  ∗ owns (c : Thread nD τ) (stage0_2 s2) fullShare X2
                  ∗ owns (c : Thread nD τ) (stage0_3 s3) fullShare (k0_pay1 X0 X1 X2)) -∗ K ⟨⟩))
      ⊢ wp frame (wpE (defs₀ (F := F)) 𝒱₀ c none) E
          (cc0__linear_kernel i (stage0_0 s0) (hstage0_0 s0) (stage0_1 s1) (hstage0_1 s1) (stage0_2 s2) (hstage0_2 s2)
            (stage0_3 s3) (hstage0_3 s3)) K := by
  -- every access is at offset zero with the buffer's own extents, the whole buffer: a load reads the contents and an
  -- unmasked store replaces them
  have hz3 : (![0, 0, 0] : Fin 3 → Nat) = fun _ => 0 := funext fun a => by fin_cases a <;> rfl
  have hz2 : (![0, 0] : Fin 2 → Nat) = fun _ => 0 := funext fun a => by fin_cases a <;> rfl
  have hz1 : (![0] : Fin 1 → Nat) = fun _ => 0 := funext fun a => by fin_cases a <;> rfl
  fin_cases s0 <;> fin_cases s1 <;> fin_cases s2 <;> fin_cases s3
  · -- rows' buffer `cc0_stg0_0`, the weights' `cc0_stg1_0`, the bias's `cc0_stg2_0`, the result's `cc0_stg3_0`
    have hr0 : (Memref.whole cc0_stg0_0 : Memref sig .tc _ _ _).view.readAt (Elt F) (Rect.unit (s := S1x4096x448) ![0, 0, 0] S1x4096x448.size
        inb_S1x4096x448_S1x4096x448_0_0_0).toLoadRect = id := funext (Memref.readAt_unit_zero (Elt F) cc0_stg0_0 hz3 _)
    have hr1 : (Memref.whole cc0_stg1_0 : Memref sig .tc _ _ _).view.readAt (Elt F) (Rect.unit (s := S448x64) ![0, 0] S448x64.size
        inb_S448x64_S448x64_0_0).toLoadRect = id := funext (Memref.readAt_unit_zero (Elt F) cc0_stg1_0 hz2 _)
    have hr2 : (Memref.whole cc0_stg2_0 : Memref sig .tc _ _ _).view.readAt (Elt F) (Rect.unit (s := S64) ![0] S64.size
        inb_S64_S64_0).toLoadRect = id := funext (Memref.readAt_unit_zero (Elt F) cc0_stg2_0 hz1 _)
    have hw3 : ∀ f w, (((Memref.whole cc0_stg3_0).access (Rect.unit (s := S1x4096x64) ![0, 0, 0] S1x4096x64.size inb_S1x4096x64_S1x4096x64_0_0_0)) :
        View sig .tc _ _ _).write (Elt F) f w Finset.univ = w := Memref.write_access_unit_zero_univ (Elt F) cc0_stg3_0 hz3 _
    simp only [owns_whole_eq, cc0__linear_kernel_eq_skeleton]; unfold cc0__linear_kernel_skel
    simp only [Prog.lift, Prog.bind_op, Prog.bind_ret]
    iintro ⟨⟨⟨%f0, %hf0, H0⟩, ⟨%f1, %hf1, H1⟩, ⟨%f2, %hf2, H2⟩, ⟨%f3, %hf3, H3⟩⟩, Hk⟩
    sl_steps
    iapply Hk
    rw [hr0, hr1, hr2, hw3]
    isplitl [H0]
    · iexists f0; isplitr; · ipureintro; exact hf0
      iexact H0
    isplitl [H1]
    · iexists f1; isplitr; · ipureintro; exact hf1
      iexact H1
    isplitl [H2]
    · iexists f2; isplitr; · ipureintro; exact hf2
      iexact H2
    · iexists k0_pay1 f0 f1 f2; isplitr; · ipureintro; rw [hf0, hf1, hf2]
      iexact H3
  · -- rows' buffer `cc0_stg0_0`, the weights' `cc0_stg1_0`, the bias's `cc0_stg2_0`, the result's `cc0_stg3_1`
    have hr0 : (Memref.whole cc0_stg0_0 : Memref sig .tc _ _ _).view.readAt (Elt F) (Rect.unit (s := S1x4096x448) ![0, 0, 0] S1x4096x448.size
        inb_S1x4096x448_S1x4096x448_0_0_0).toLoadRect = id := funext (Memref.readAt_unit_zero (Elt F) cc0_stg0_0 hz3 _)
    have hr1 : (Memref.whole cc0_stg1_0 : Memref sig .tc _ _ _).view.readAt (Elt F) (Rect.unit (s := S448x64) ![0, 0] S448x64.size
        inb_S448x64_S448x64_0_0).toLoadRect = id := funext (Memref.readAt_unit_zero (Elt F) cc0_stg1_0 hz2 _)
    have hr2 : (Memref.whole cc0_stg2_0 : Memref sig .tc _ _ _).view.readAt (Elt F) (Rect.unit (s := S64) ![0] S64.size
        inb_S64_S64_0).toLoadRect = id := funext (Memref.readAt_unit_zero (Elt F) cc0_stg2_0 hz1 _)
    have hw3 : ∀ f w, (((Memref.whole cc0_stg3_1).access (Rect.unit (s := S1x4096x64) ![0, 0, 0] S1x4096x64.size inb_S1x4096x64_S1x4096x64_0_0_0)) :
        View sig .tc _ _ _).write (Elt F) f w Finset.univ = w := Memref.write_access_unit_zero_univ (Elt F) cc0_stg3_1 hz3 _
    simp only [owns_whole_eq, cc0__linear_kernel_eq_skeleton]; unfold cc0__linear_kernel_skel
    simp only [Prog.lift, Prog.bind_op, Prog.bind_ret]
    iintro ⟨⟨⟨%f0, %hf0, H0⟩, ⟨%f1, %hf1, H1⟩, ⟨%f2, %hf2, H2⟩, ⟨%f3, %hf3, H3⟩⟩, Hk⟩
    sl_steps
    iapply Hk
    rw [hr0, hr1, hr2, hw3]
    isplitl [H0]
    · iexists f0; isplitr; · ipureintro; exact hf0
      iexact H0
    isplitl [H1]
    · iexists f1; isplitr; · ipureintro; exact hf1
      iexact H1
    isplitl [H2]
    · iexists f2; isplitr; · ipureintro; exact hf2
      iexact H2
    · iexists k0_pay1 f0 f1 f2; isplitr; · ipureintro; rw [hf0, hf1, hf2]
      iexact H3
  · -- rows' buffer `cc0_stg0_1`, the weights' `cc0_stg1_0`, the bias's `cc0_stg2_0`, the result's `cc0_stg3_0`
    have hr0 : (Memref.whole cc0_stg0_1 : Memref sig .tc _ _ _).view.readAt (Elt F) (Rect.unit (s := S1x4096x448) ![0, 0, 0] S1x4096x448.size
        inb_S1x4096x448_S1x4096x448_0_0_0).toLoadRect = id := funext (Memref.readAt_unit_zero (Elt F) cc0_stg0_1 hz3 _)
    have hr1 : (Memref.whole cc0_stg1_0 : Memref sig .tc _ _ _).view.readAt (Elt F) (Rect.unit (s := S448x64) ![0, 0] S448x64.size
        inb_S448x64_S448x64_0_0).toLoadRect = id := funext (Memref.readAt_unit_zero (Elt F) cc0_stg1_0 hz2 _)
    have hr2 : (Memref.whole cc0_stg2_0 : Memref sig .tc _ _ _).view.readAt (Elt F) (Rect.unit (s := S64) ![0] S64.size
        inb_S64_S64_0).toLoadRect = id := funext (Memref.readAt_unit_zero (Elt F) cc0_stg2_0 hz1 _)
    have hw3 : ∀ f w, (((Memref.whole cc0_stg3_0).access (Rect.unit (s := S1x4096x64) ![0, 0, 0] S1x4096x64.size inb_S1x4096x64_S1x4096x64_0_0_0)) :
        View sig .tc _ _ _).write (Elt F) f w Finset.univ = w := Memref.write_access_unit_zero_univ (Elt F) cc0_stg3_0 hz3 _
    simp only [owns_whole_eq, cc0__linear_kernel_eq_skeleton]; unfold cc0__linear_kernel_skel
    simp only [Prog.lift, Prog.bind_op, Prog.bind_ret]
    iintro ⟨⟨⟨%f0, %hf0, H0⟩, ⟨%f1, %hf1, H1⟩, ⟨%f2, %hf2, H2⟩, ⟨%f3, %hf3, H3⟩⟩, Hk⟩
    sl_steps
    iapply Hk
    rw [hr0, hr1, hr2, hw3]
    isplitl [H0]
    · iexists f0; isplitr; · ipureintro; exact hf0
      iexact H0
    isplitl [H1]
    · iexists f1; isplitr; · ipureintro; exact hf1
      iexact H1
    isplitl [H2]
    · iexists f2; isplitr; · ipureintro; exact hf2
      iexact H2
    · iexists k0_pay1 f0 f1 f2; isplitr; · ipureintro; rw [hf0, hf1, hf2]
      iexact H3
  · -- rows' buffer `cc0_stg0_1`, the weights' `cc0_stg1_0`, the bias's `cc0_stg2_0`, the result's `cc0_stg3_1`
    have hr0 : (Memref.whole cc0_stg0_1 : Memref sig .tc _ _ _).view.readAt (Elt F) (Rect.unit (s := S1x4096x448) ![0, 0, 0] S1x4096x448.size
        inb_S1x4096x448_S1x4096x448_0_0_0).toLoadRect = id := funext (Memref.readAt_unit_zero (Elt F) cc0_stg0_1 hz3 _)
    have hr1 : (Memref.whole cc0_stg1_0 : Memref sig .tc _ _ _).view.readAt (Elt F) (Rect.unit (s := S448x64) ![0, 0] S448x64.size
        inb_S448x64_S448x64_0_0).toLoadRect = id := funext (Memref.readAt_unit_zero (Elt F) cc0_stg1_0 hz2 _)
    have hr2 : (Memref.whole cc0_stg2_0 : Memref sig .tc _ _ _).view.readAt (Elt F) (Rect.unit (s := S64) ![0] S64.size
        inb_S64_S64_0).toLoadRect = id := funext (Memref.readAt_unit_zero (Elt F) cc0_stg2_0 hz1 _)
    have hw3 : ∀ f w, (((Memref.whole cc0_stg3_1).access (Rect.unit (s := S1x4096x64) ![0, 0, 0] S1x4096x64.size inb_S1x4096x64_S1x4096x64_0_0_0)) :
        View sig .tc _ _ _).write (Elt F) f w Finset.univ = w := Memref.write_access_unit_zero_univ (Elt F) cc0_stg3_1 hz3 _
    simp only [owns_whole_eq, cc0__linear_kernel_eq_skeleton]; unfold cc0__linear_kernel_skel
    simp only [Prog.lift, Prog.bind_op, Prog.bind_ret]
    iintro ⟨⟨⟨%f0, %hf0, H0⟩, ⟨%f1, %hf1, H1⟩, ⟨%f2, %hf2, H2⟩, ⟨%f3, %hf3, H3⟩⟩, Hk⟩
    sl_steps
    iapply Hk
    rw [hr0, hr1, hr2, hw3]
    isplitl [H0]
    · iexists f0; isplitr; · ipureintro; exact hf0
      iexact H0
    isplitl [H1]
    · iexists f1; isplitr; · ipureintro; exact hf1
      iexact H1
    isplitl [H2]
    · iexists f2; isplitr; · ipureintro; exact hf2
      iexact H2
    · iexists k0_pay1 f0 f1 f2; isplitr; · ipureintro; rw [hf0, hf1, hf2]
      iexact H3

end Cert.KernelIdeal.Body

end
-- ==== Proof.LibMatmulPlain.lean ====
/-
  A matrix product into a zero accumulator, read at an entry, on the extended reals.

  For the plain dimension numbers (contract the left operand's axis 1 with the right operand's axis 0, no batch
  axes: an M x K matrix times a K x N matrix), the entry (p, q) of the product accumulated into the zero matrix is
  the sum over k of left (p, k) times right (k, q).  No program is imported: the dimension record is a variable,
  constrained only by its six lists.
-/
import Idealize.ShloMosaic.PureOps.Ideal.Laws
import Idealize.ShloMosaic.Lib.ValueIdx

noncomputable section

namespace Cert.LibMatmulPlain

open Idealize.ShloMosaic Idealize.ShloMosaic.ValueIdx

/-- Entry (p, q) of an M x K by K x N product into the zero accumulator is the sum over the contracted axis. -/
theorem matmul_zero_apply {M K N : ℕ} {φ₁ φ₂ : FTy}
    (D : DotDims ⟨2, ![M, K]⟩ ⟨2, ![K, N]⟩ ⟨2, ![M, N]⟩)
    (h1 : D.lhsContracting = [1]) (h2 : D.rhsContracting = [0])
    (h3 : D.lhsNonContracting = [0]) (h4 : D.rhsNonContracting = [1])
    (h5 : D.lhsBatch = []) (h6 : D.rhsBatch = [])
    (l : FVec Ideal ⟨2, ![M, K]⟩ φ₁) (r : FVec Ideal ⟨2, ![K, N]⟩ φ₂) (p : Fin M) (q : Fin N) :
    matmul D none l r (constant (F := Ideal) ⟨2, ![M, N]⟩ .f32 0x00000000#32) (ix2 p q)
      = ∑ k : Fin K, l (ix2 p k) * r (ix2 k q) := by
  obtain ⟨lc, rc, ln, rn, lb, rb, wf⟩ := D
  dsimp only at h1 h2 h3 h4 h5 h6
  subst h1 h2 h3 h4 h5 h6
  refine (Ideal.matmul_constant_zero_apply _ none l r (ix2 p q)).trans ?_
  rw [← Equiv.sum_comp (contrEquiv1 _ K rfl rfl).symm]
  refine Finset.sum_congr rfl fun k _ => ?_
  have hk := contrEquiv1_symm_val (DotDims.mk (sl := ⟨2, ![M, K]⟩) (sr := ⟨2, ![K, N]⟩) (so := ⟨2, ![M, N]⟩) [1] [0] [0] [1] [] [] wf) K rfl rfl k
  have el : (DotDims.mk (sl := ⟨2, ![M, K]⟩) (sr := ⟨2, ![K, N]⟩) (so := ⟨2, ![M, N]⟩) [1] [0] [0] [1] [] [] wf).lhsIdx (ix2 p q)
      ((contrEquiv1 _ K rfl rfl).symm k) = ix2 p k := funext fun a => Fin.ext (by
    match a with
    | ⟨0, _⟩ =>
      unfold DotDims.lhsIdx
      rw [dif_neg (show ¬ (⟨0, by decide⟩ : Fin 2) ∈ ([] : List (Fin 2)) from List.not_mem_nil),
        dif_pos (show (⟨0, by decide⟩ : Fin 2) ∈ ([0] : List (Fin 2)) from List.mem_singleton.2 rfl)]
      rfl
    | ⟨1, _⟩ => exact (DotDims.lhsIdx_val_of_single _ rfl _ _).trans hk)
  have er : (DotDims.mk (sl := ⟨2, ![M, K]⟩) (sr := ⟨2, ![K, N]⟩) (so := ⟨2, ![M, N]⟩) [1] [0] [0] [1] [] [] wf).rhsIdx (ix2 p q)
      ((contrEquiv1 _ K rfl rfl).symm k) = ix2 k q := funext fun a => Fin.ext (by
    match a with
    | ⟨0, _⟩ => exact (DotDims.rhsIdx_val_of_single _ rfl _ _).trans hk
    | ⟨1, _⟩ =>
      unfold DotDims.rhsIdx
      rw [dif_neg (show ¬ (⟨1, by decide⟩ : Fin 2) ∈ ([] : List (Fin 2)) from List.not_mem_nil),
        dif_pos (show (⟨1, by decide⟩ : Fin 2) ∈ ([1] : List (Fin 2)) from List.mem_singleton.2 rfl)]
      rfl)
  rw [el, er]

end Cert.LibMatmulPlain

end
-- ==== Proof.Payload.lean ====
/-
  What one grid point computes, entry by entry, on the extended reals.

  From a block `X0` of 4096 rows of 448 entries (shape [1, 4096, 448]), the weights `X1` (shape [448, 64]) and the
  bias `X2` (64 entries) the body's stored value at row r and column o is

      Σ_{k < 448} X0[0, r, k] · X1[k, o]  +  X2[o].

  The two changes of float format are the identity on the extended reals, the shape casts only drop or add the
  leading unit axis, the matrix product is accumulated into the zero matrix (0 + Σ = Σ), and the bias row is
  repeated along the rows.  In particular row r of the result reads row r of the block and no other.
-/
import proofs.«139738_j45500883534541_1_alg».proof.Proof.Gen.KernelIdeal.Skeleton
import proofs.«139738_j45500883534541_1_alg».proof.Proof.LibMatmulPlain
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Payload

open Cert.KernelIdeal Cert.KernelIdeal.Gen
open Idealize.ShloMosaic Idealize.ShloMosaic.ValueIdx Idealize.ShloMosaic.Pipeline

/-- The stored value at row `r`, column `o`: row `r` of the block against column `o` of the weights, plus the bias. -/
theorem pay_apply (X0 : Vec Ideal S1x4096x448 .f32) (X1 : Vec Ideal S448x64 .f32) (X2 : Vec Ideal S64 .f32)
    (r : Fin 4096) (o : Fin 64) :
    k0_pay1 (F := Ideal) X0 X1 X2 (ix3 (0 : Fin 1) r o)
      = (∑ k : Fin 448, X0 (ix3 (0 : Fin 1) r k) * X1 (ix2 k o)) + X2 (ix1 o) := by
  show shapeCast S1x4096x64 (addf (matmul dot_S4096x448_S448x64_S4096x64_1_0_0_1_n_n none
        (truncf .bf16 (shapeCast S4096x448 X0 _) _)
        (truncf .bf16 (shapeCast S448x64 X1 _) _)
        (constant (F := Ideal) S4096x64 .f32 0x00000000#32))
      (broadcastTo S4096x64 (shapeCast S1x64 X2 _) _))
      _ (ix3 (0 : Fin 1) r o) = _
  rw [shapeCast_ab_1ab_apply, addf_apply,
    Cert.LibMatmulPlain.matmul_zero_apply dot_S4096x448_S448x64_S4096x64_1_0_0_1_n_n rfl rfl rfl rfl rfl rfl,
    broadcastTo_1b_ab_apply, shapeCast_a_1a_apply]
  refine congrArg (· + X2 (ix1 o)) (Finset.sum_congr rfl fun k _ => ?_)
  rw [truncf_apply, truncf_apply, shapeCast_1ab_ab_apply, shapeCast_self]

end Cert.KernelIdeal.Payload

end
-- ==== Proof.RunI.lean ====
/-
  The idealized kernel's run over its grid of 2 × 41 points.

  Point (b, n) stages rows 4096·n … 4096·n + 4095 of batch b of the row array, the whole weights and the whole bias,
  and writes back the rows it computed.  The last block of each batch overhangs the array (163842 = 40·4096 + 2): only
  its first two rows are fetched and only its first two rows are written back; the other 4094 rows of the staging
  buffers hold contents nothing names.  Because row r of what the body computes reads row r of the block and no other
  row, the rows written back do not depend on those unnamed contents: the proof data below names them with zeros, and
  the obligation is met for any contents there.
-/
import proofs.«139738_j45500883534541_1_alg».proof.Proof.BodyI
import proofs.«139738_j45500883534541_1_alg».proof.Proof.Payload

set_option maxRecDepth 16384

noncomputable section

namespace Cert.KernelIdeal.Run

open Cert.KernelIdeal Cert.KernelIdeal.Gen Cert.KernelIdeal.Body

open Idealize.ShloMosaic
open Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf kernel pipe)

local notation "𝕄" => MT nD τ sig Unit (Elt Ideal) ℕ (UR sig nD τ) ℕ

variable (m : (ℓ : Loc nD τ sig) → Buf (Elt Ideal) ℓ) (ρ : Dev nD → PrngReg)

/-! ## The proof data -/

/-- The name given to the rows of a staging block past the array's end: zero. -/
def pad0 : S1x4096x448.Idx → Elt Ideal .f32 := fun _ => (0 : EReal)

/-- What the body leaves in the result's buffer from the three values it read, as contents of that buffer. -/
abbrev outOf (X0 : S1x4096x448.Idx → Elt Ideal .f32) (X1 : S448x64.Idx → Elt Ideal .f32) (X2 : S64.Idx → Elt Ideal .f32) :
    S1x4096x64.Idx → Elt Ideal .f32 := k0_pay1 (F := Ideal) X0 X1 X2

/-- The rows' block at point `t`: its rows inside the array as fetched, zeros past the array's end. -/
def rows (c : Dev nD) (t : Fin cfg0.N) : S1x4096x448.Idx → Elt Ideal .f32 :=
  win0_0.fill (grid0.coords t) pad0 (iblk m c 0 t)

/-- After the body at point `t`: the three input buffers hold their blocks, the result's the product of the rows
    with the weights plus the bias. -/
def dats (_ : Fin 1) (c : Dev nD) : Dat τ (Elt Ideal) Unit ℕ (UR sig nD τ) ℕ cfg0 c where
  A w := Gen.V m c (Pipeline.arrRef spec0 w)
  after w t := match w with
    | ⟨0, _⟩ => rows m c t
    | ⟨1, _⟩ => iblk m c 1 t
    | ⟨2, _⟩ => iblk m c 2 t
    | ⟨3, _⟩ => outOf (rows m c t) (iblk m c 1 t) (iblk m c 2 t)
  Φ _ := Pipeline.ΦA spec0 c
  q _ := fullShare
  owed _ := 0

/-- What the body finds: the rows' buffer just fetched — the block on the rows inside the array, `d` elsewhere —, -/
theorem before_0 (c : Dev nD) (t : Fin cfg0.N) (d) :
    (dats m 0 c).before (0 : Fin 4) t d = win0_0.fill (grid0.coords t) d (iblk m c 0 t) := by
  rw [(dats m 0 c).before_fetched 0 t (fetch0_0 t) d]
  unfold Dat.fetched Dat.blockOf iblk
  dsimp only [dats]
/-- the weights and the bias at their whole arrays, fetched at this point or at the first, -/
theorem before_1 (c : Dev nD) (t : Fin cfg0.N) (d) : (dats m 0 c).before (1 : Fin 4) t d = iblk m c 1 t :=
  before0_1_of m (dats m 0 c) rfl (fun _ => rfl) t d
theorem before_2 (c : Dev nD) (t : Fin cfg0.N) (d) : (dats m 0 c).before (2 : Fin 4) t d = iblk m c 2 t :=
  before0_2_of m (dats m 0 c) rfl (fun _ => rfl) t d
/-- the result's buffer at contents nothing names (it is written back at every point). -/
theorem before_3 (c : Dev nD) (t : Fin cfg0.N) (d) : (dats m 0 c).before (3 : Fin 4) t d = d :=
  (dats m 0 c).before_out_reset 3 rfl t
    (by by_cases h : t.val = 0
        · exact .inl h
        · exact .inr ⟨h, flush0_3 _⟩) d

/-! ## Rows inside the array do not depend on the rows past its end -/

/-- At every point the rows' window and the result's window are cut alike: the whole leading axis, the same number
    of rows, every column. -/
theorem cuts : ∀ t : Fin cfg0.N,
    win0_0.xsize (grid0.coords t) 0 = 1 ∧ win0_0.xsize (grid0.coords t) 1 = win0_3.xsize (grid0.coords t) 1
      ∧ win0_0.xsize (grid0.coords t) 2 = 448 ∧ win0_3.xsize (grid0.coords t) 0 = 1 ∧ win0_3.xsize (grid0.coords t) 2 = 64 :=
  (by decide +kernel : ∀ t : Fin grid0.N,
    win0_0.xsize (grid0.coords t) 0 = 1 ∧ win0_0.xsize (grid0.coords t) 1 = win0_3.xsize (grid0.coords t) 1
      ∧ win0_0.xsize (grid0.coords t) 2 = 448 ∧ win0_3.xsize (grid0.coords t) 0 = 1 ∧ win0_3.xsize (grid0.coords t) 2 = 64)

/-- A filled block read at an entry the fetch moves is the fetched part there, whatever fills the rest. -/
theorem fill_moved {α : Type} (i : grid0.Coords) (d : S1x4096x448.Idx → α) (g : (win0_0.xblock i).Idx → α)
    (j : S1x4096x448.Idx) (h : win0_0.moved i j = true) :
    win0_0.fill i d g j = g fun a => ⟨(j a).val, (win0_0.moved_iff i j).mp h a⟩ := by
  unfold Window.fill; rw [dif_pos h]

/-- The rows of the result inside the array are computed from the rows of the block inside the array alone. -/
theorem row_local (t : Fin cfg0.N) (d d' : S1x4096x448.Idx → Elt Ideal .f32)
    (g : (win0_0.xblock (grid0.coords t)).Idx → Elt Ideal .f32) (X1 : S448x64.Idx → Elt Ideal .f32)
    (X2 : S64.Idx → Elt Ideal .f32) :
    win0_3.cut (grid0.coords t) (outOf (win0_0.fill (grid0.coords t) d g) X1 X2)
      = win0_3.cut (grid0.coords t) (outOf (win0_0.fill (grid0.coords t) d' g) X1 X2) := by
  obtain ⟨h00, h01, h02, h30, h32⟩ := cuts t
  funext j
  have hj0 : (j 0).val < 1 := h30 ▸ (j 0).isLt
  have hj1 : (j 1).val < win0_3.xsize (grid0.coords t) 1 := (j 1).isLt
  have hj2 : (j 2).val < 64 := h32 ▸ (j 2).isLt
  have hr : (j 1).val < 4096 := Nat.lt_of_lt_of_le hj1 (win0_3.xsize_le (grid0.coords t) 1)
  have e : win0_3.xinj (grid0.coords t) j = ix3 (0 : Fin 1) (⟨(j 1).val, hr⟩ : Fin 4096) (⟨(j 2).val, hj2⟩ : Fin 64) :=
    funext fun a => Fin.ext (by
      match a with
      | ⟨0, _⟩ => show (j 0).val = 0; omega
      | ⟨1, _⟩ => rfl
      | ⟨2, _⟩ => rfl)
  show k0_pay1 (F := Ideal) _ X1 X2 (win0_3.xinj (grid0.coords t) j) = k0_pay1 (F := Ideal) _ X1 X2 (win0_3.xinj (grid0.coords t) j)
  rw [e, Payload.pay_apply, Payload.pay_apply]
  refine congrArg (· + _) (Finset.sum_congr rfl fun k _ => ?_)
  have hm : win0_0.moved (grid0.coords t) (ix3 (0 : Fin 1) (⟨(j 1).val, hr⟩ : Fin 4096) k) = true :=
    (win0_0.moved_iff _ _).mpr fun a => by
      match a with
      | ⟨0, _⟩ => show (0 : ℕ) < win0_0.xsize (grid0.coords t) 0; rw [h00]; exact Nat.one_pos
      | ⟨1, _⟩ => show (j 1).val < win0_0.xsize (grid0.coords t) 1; rw [h01]; exact hj1
      | ⟨2, _⟩ => show k.val < win0_0.xsize (grid0.coords t) 2; rw [h02]; exact k.isLt
  rw [fill_moved _ d g _ hm, fill_moved _ d' g _ hm]

/-! ## The body obligation -/

/-- At every point the body, handed the four buffers as the pipeline leaves them, hands them back as the proof data
    says on the rows the transfers move: the inputs unchanged, the result's rows inside the array at the product of
    the block's rows inside the array with the weights plus the bias. -/
theorem body_obligation (c : Dev nD) : BodyObligationLoose (dats m 0 c) (defs₀ (F := Ideal)) 𝒱₀ () Set.univ := fun t => by
  rw [bigSep_W0, bigSep_W0]
  simp only
  rw [show (dats m 0 c).Φ t.succ = (dats m 0 c).Φ t.castSucc from rfl,
    show (dats m 0 c).owesAt () t.succ = (dats m 0 c).owesAt () t.castSucc from rfl]
  iintro ⟨HΦ, Ho, ⟨%d0, H0⟩, ⟨%d1, H1⟩, ⟨%d2, H2⟩, ⟨%d3, H3⟩⟩
  rw [before_0 m c t d0, before_1 m c t d1, before_2 m c t d2, before_3 m c t d3]
  iapply (sound_body (F := Ideal) c Set.univ (grid0.coords t) (cfg0.slots t 0) (cfg0.slots t 1) (cfg0.slots t 2) (cfg0.slots t 3)
    (win0_0.fill (grid0.coords t) d0 (iblk m c 0 t)) (iblk m c 1 t) (iblk m c 2 t) d3 _)
  isplitl [H0 H1 H2 H3]
  · isplitl [H0]
    · iexact H0
    isplitl [H1]
    · iexact H1
    isplitl [H2]
    · iexact H2
    · iexact H3
  iintro ⟨H0, H1, H2, H3⟩
  isplitl [HΦ]; · iexact HΦ
  isplitl [Ho]; · iexact Ho
  have hx : win0_0.cut (grid0.coords t) (rows m c t) = iblk m c 0 t := win0_0.cut_fill _ _ _
  have hy : win0_3.cut (grid0.coords t) (outOf (rows m c t) (iblk m c 1 t) (iblk m c 2 t))
      = win0_3.cut (grid0.coords t) (outOf (win0_0.fill (grid0.coords t) d0 (iblk m c 0 t)) (iblk m c 1 t) (iblk m c 2 t)) :=
    row_local t pad0 d0 (iblk m c 0 t) (iblk m c 1 t) (iblk m c 2 t)
  isplitl [H0]
  · iexists d0
    change _ ⊢ owns (c : Thread nD τ) (stage0_0 (cfg0.slots t 0)) fullShare (win0_0.fill (grid0.coords t) d0 (win0_0.cut (grid0.coords t) (rows m c t)))
    rw [hx]; try iexact H0
  isplitl [H1]
  · iexact H1
  isplitl [H2]
  · iexact H2
  · iexists outOf (win0_0.fill (grid0.coords t) d0 (iblk m c 0 t)) (iblk m c 1 t) (iblk m c 2 t)
    change _ ⊢ owns (c : Thread nD τ) (stage0_3 (cfg0.slots t 3)) fullShare
      (win0_3.fill (grid0.coords t) (outOf (win0_0.fill (grid0.coords t) d0 (iblk m c 0 t)) (iblk m c 1 t) (iblk m c 2 t))
        (win0_3.cut (grid0.coords t) (outOf (rows m c t) (iblk m c 1 t) (iblk m c 2 t))))
    rw [hy, win0_3.fill_cut]; try iexact H3

/-! ## The run -/

/-- Every weakly fair execution of @main ends, nothing faulting, with each array of the kernel at what the proof data
    computes after the last write-back and every other array as the region found it. -/
theorem run_main : θ_run defs (onTc (τ := τ) (main (F := Ideal))) (s₀ m ρ) (Pipeline.FramePost cfgs (dats m) 0 (Gen.V m)) :=
  Pipeline.θ_run_frame cfgs (dats m) 0 Gen.launch0 defs₀ 𝒱₀ m ρ main
    (hbody := body_obligation m)
    (hshare := fun c => (dats m 0 c).share_full fun _ => rfl) (howed := fun _ _ => rfl)
    (V := Gen.V m) (hmain := Gen.hmain m 𝒱₀) (hA := fun _ _ => rfl) (hΦ := fun _ _ => rfl)

end Cert.KernelIdeal.Run

end
-- ==== Proof.Blocks.lean ====
import proofs.«139738_j45500883534541_1_alg».proof.Proof.Gen.KernelIdeal.Frame
import Idealize.ShloMosaic.Lib.Pipeline.Value
import Idealize.ShloMosaic.Lib.ValueIdx
import Idealize.ShloMosaic.PureOps.Ideal

noncomputable section

namespace Cert.KernelIdeal.Blocks

open Cert.KernelIdeal Cert.KernelIdeal.Gen Idealize.ShloMosaic Idealize.ShloMosaic.TcCoe Idealize.ShloMosaic.ValueIdx
open Idealize.ShloMosaic.Pipeline (Window)

/-! ## The grid's table

The grid is 2 × 41: point `t` is batch `t / 41`, row block `t % 41`. The row axis has
163842 = 40 · 4096 + 2 rows, so row block 40 of each batch is cut to its first two rows. -/

/-- Window 0 (the matrix rows) at every point: block index and transfer sizes. -/
theorem tab0 : ∀ t : Fin grid0.N, win0_0.index t 0 = t.val / 41 ∧ win0_0.index t 1 = t.val % 41 ∧ win0_0.index t 2 = 0
    ∧ win0_0.xsize (grid0.coords t) 0 = 1
    ∧ win0_0.xsize (grid0.coords t) 1 = (if t.val % 41 = 40 then 2 else 4096)
    ∧ win0_0.xsize (grid0.coords t) 2 = 448 := by decide +kernel

/-- Window 3 (the result rows) at every point: block index and transfer sizes. -/
theorem tab3 : ∀ t : Fin grid0.N, win0_3.index t 0 = t.val / 41 ∧ win0_3.index t 1 = t.val % 41 ∧ win0_3.index t 2 = 0
    ∧ win0_3.xsize (grid0.coords t) 0 = 1
    ∧ win0_3.xsize (grid0.coords t) 1 = (if t.val % 41 = 40 then 2 else 4096)
    ∧ win0_3.xsize (grid0.coords t) 2 = 64 := by decide +kernel

theorem size0 : win0_0.size 0 = 1 ∧ win0_0.size 1 = 4096 ∧ win0_0.size 2 = 448 := ⟨rfl, rfl, rfl⟩
theorem size3 : win0_3.size 0 = 1 ∧ win0_3.size 1 = 4096 ∧ win0_3.size 2 = 64 := ⟨rfl, rfl, rfl⟩

theorem t_lt (t : Fin cfg0.N) : t.val < 82 := t.isLt

/-- An index of window 3's transfer at point `t` names a row of the result inside the array. -/
theorem inb (t : Fin cfg0.N) (j : (win0_3.xblock (grid0.coords t)).Idx) :
    t.val / 41 < 2 ∧ (t.val % 41) * 4096 + (j 1).val < 163842 ∧ (j 2).val < 64 ∧ (j 0).val = 0 := by
  obtain ⟨-, -, -, h0, h1, h2⟩ := tab3 t
  have ht := t_lt t
  have j0 : (j 0).val < win0_3.xsize (grid0.coords t) 0 := (j 0).isLt
  have j1 : (j 1).val < win0_3.xsize (grid0.coords t) 1 := (j 1).isLt
  have j2 : (j 2).val < win0_3.xsize (grid0.coords t) 2 := (j 2).isLt
  rw [h0] at j0; rw [h1] at j1; rw [h2] at j2
  split at j1 <;> omega

/-- An index of window 0's transfer at point `t` names a row of the matrix inside the array. -/
theorem inb0 (t : Fin cfg0.N) (j : (win0_0.xblock (grid0.coords t)).Idx) :
    t.val / 41 < 2 ∧ (t.val % 41) * 4096 + (j 1).val < 163842 ∧ (j 2).val < 448 ∧ (j 0).val = 0 := by
  obtain ⟨-, -, -, h0, h1, h2⟩ := tab0 t
  have ht := t_lt t
  have j0 : (j 0).val < win0_0.xsize (grid0.coords t) 0 := (j 0).isLt
  have j1 : (j 1).val < win0_0.xsize (grid0.coords t) 1 := (j 1).isLt
  have j2 : (j 2).val < win0_0.xsize (grid0.coords t) 2 := (j 2).isLt
  rw [h0] at j0; rw [h1] at j1; rw [h2] at j2
  split at j1 <;> omega

/-! ## Where a transfer's element sits in its array -/

/-- Element `j` of window 3's transfer at point `t` is the result's entry (batch `t / 41`,
    row `(t % 41) · 4096 + j₁`, column `j₂`). -/
theorem emb3 (t : Fin cfg0.N) (j : (win0_3.xblock (grid0.coords t)).Idx) (B : Fin 2) (R : Fin 163842) (o : Fin 64)
    (hB : B.val = t.val / 41) (hR : R.val = (t.val % 41) * 4096 + (j 1).val) (ho : o.val = (j 2).val) :
    ((cfg0.win 3).blk t).view.emb j = ix3 B R o := by
  obtain ⟨i0, i1, i2, -, -, -⟩ := tab3 t
  obtain ⟨-, -, -, hj0⟩ := inb t j
  funext a; apply Fin.ext
  show ((win0_3.rect t).emb j a : Nat) = _
  rw [Window.rect_emb_val]
  match a with
  | ⟨0, _⟩ => show win0_3.index t 0 * 1 + (j 0).val = B.val; rw [i0]; omega
  | ⟨1, _⟩ => show win0_3.index t 1 * 4096 + (j 1).val = R.val; rw [i1]; omega
  | ⟨2, _⟩ => show win0_3.index t 2 * 64 + (j 2).val = o.val; rw [i2]; omega

/-- Element `j` of window 0's transfer at point `t` is the matrix' entry (batch `t / 41`,
    row `(t % 41) · 4096 + j₁`, column `j₂`). -/
theorem emb0 (t : Fin cfg0.N) (j : (win0_0.xblock (grid0.coords t)).Idx) (B : Fin 2) (R : Fin 163842) (k : Fin 448)
    (hB : B.val = t.val / 41) (hR : R.val = (t.val % 41) * 4096 + (j 1).val) (hk : k.val = (j 2).val) :
    ((cfg0.win 0).blk t).view.emb j = ix3 B R k := by
  obtain ⟨i0, i1, i2, -, -, -⟩ := tab0 t
  obtain ⟨-, -, -, hj0⟩ := inb0 t j
  funext a; apply Fin.ext
  show ((win0_0.rect t).emb j a : Nat) = _
  rw [Window.rect_emb_val]
  match a with
  | ⟨0, _⟩ => show win0_0.index t 0 * 1 + (j 0).val = B.val; rw [i0]; omega
  | ⟨1, _⟩ => show win0_0.index t 1 * 4096 + (j 1).val = R.val; rw [i1]; omega
  | ⟨2, _⟩ => show win0_0.index t 2 * 448 + (j 2).val = k.val; rw [i2]; omega

/-- Windows 1 (the weights) and 2 (the bias) move their whole arrays: block index zero at every point. -/
theorem tab12 : ∀ t : Fin grid0.N, win0_1.index t 0 = 0 ∧ win0_1.index t 1 = 0 ∧ win0_2.index t 0 = 0 := by decide +kernel

theorem emb1 (t : Fin cfg0.N) (k : Fin 448) (o : Fin 64) :
    ((cfg0.win 1).blk t).view.emb (ix2 k o) = ix2 k o := by
  obtain ⟨i0, i1, -⟩ := tab12 t
  funext a; apply Fin.ext
  show ((win0_1.rect t).emb (ix2 k o) a : Nat) = _
  match a with
  | ⟨0, _⟩ => exact win0_1.rect_emb_val_of_index_zero t 0 i0 _
  | ⟨1, _⟩ => exact win0_1.rect_emb_val_of_index_zero t 1 i1 _

theorem emb2 (t : Fin cfg0.N) (o : Fin 64) :
    ((cfg0.win 2).blk t).view.emb (ix1 o) = ix1 o := by
  obtain ⟨-, -, i0⟩ := tab12 t
  funext a; apply Fin.ext
  show ((win0_2.rect t).emb (ix1 o) a : Nat) = _
  match a with
  | ⟨0, _⟩ => exact win0_2.rect_emb_val_of_index_zero t 0 i0 _

/-! ## The blocks the region reads, entry by entry -/

section Reads

variable (m : (ℓ : Loc nD τ sig) → Buf (Elt Ideal) ℓ) (c : Dev nD)

/-- Window 0's block at point `t` holds, at `j`, the matrix' entry (batch `t / 41`, row
    `(t % 41) · 4096 + j₁`, column `j₂`). -/
theorem iblk0_apply (t : Fin cfg0.N) (j : (win0_0.xblock (grid0.coords t)).Idx) (B : Fin 2) (R : Fin 163842) (k : Fin 448)
    (hB : B.val = t.val / 41) (hR : R.val = (t.val % 41) * 4096 + (j 1).val) (hk : k.val = (j 2).val) :
    Gen.iblk m c 0 t j = (Gen.V m c main_v2 : S2x163842x448.Idx → Elt Ideal .f32) (ix3 B R k) := by
  have e := emb0 t j B R k hB hR hk
  unfold Gen.iblk
  generalize Gen.V m c = W
  rw [View.read_apply, e]
  exact cast_eq_iff_heq.mpr HEq.rfl

/-- Window 1's block is the whole transposed weight matrix, at every point. -/
theorem iblk1_apply (t : Fin cfg0.N) (k : Fin 448) (o : Fin 64) :
    Gen.iblk m c 1 t (ix2 k o) = (Gen.V m c main_v3 : S448x64.Idx → Elt Ideal .f32) (ix2 k o) := by
  have e := emb1 t k o
  unfold Gen.iblk
  generalize Gen.V m c = W
  rw [View.read_apply, e]
  exact cast_eq_iff_heq.mpr HEq.rfl

/-- Window 2's block is the whole bias row, at every point. -/
theorem iblk2_apply (t : Fin cfg0.N) (o : Fin 64) :
    Gen.iblk m c 2 t (ix1 o) = (Gen.V m c main_arg2 : S64.Idx → Elt Ideal .f32) (ix1 o) := by
  have e := emb2 t o
  unfold Gen.iblk
  generalize Gen.V m c = W
  rw [View.read_apply, e]
  exact cast_eq_iff_heq.mpr HEq.rfl

end Reads

/-- info: 'Cert.KernelIdeal.Blocks.emb3' depends on axioms: [propext, Classical.choice, Quot.sound] -/
#guard_msgs in #print axioms emb3
/-- info: 'Cert.KernelIdeal.Blocks.iblk0_apply' depends on axioms: [propext, Classical.choice, Quot.sound] -/
#guard_msgs in #print axioms iblk0_apply

end Cert.KernelIdeal.Blocks

end
-- ==== Proof.Cover.lean ====
/-
  The result windows cover the result array.

  The grid has 2 × 41 points; point t writes back the block of the result array [2, 163842, 64] at block index
  (t / 41, t % 41, 0), a block of [1, 4096, 64] cut at the array's end: since 163842 = 40 · 4096 + 2, the block
  at row-block 40 keeps its first two rows.  An index (p, n, o) of the array therefore lies in the part inside
  the array of the block of point p · 41 + n / 4096.
-/
import proofs.«139738_j45500883534541_1_alg».proof.Proof.Gen.KernelIdeal.Frame
import Idealize.ShloMosaic.Lib.Pipeline.Value
import Idealize.ShloMosaic.Lib.ValueIdx

noncomputable section

namespace Cert.KernelIdeal.Cover

open Cert.KernelIdeal Cert.KernelIdeal.Gen Idealize.ShloMosaic Idealize.ShloMosaic.TcCoe Idealize.ShloMosaic.ValueIdx

/-- The result window's block index and cut sizes at every point, decided over the grid. -/
theorem tab : ∀ t : Fin cfg0.N, win0_3.index t (0 : Fin 3) = t.val / 41 ∧ win0_3.index t (1 : Fin 3) = t.val % 41
    ∧ win0_3.index t (2 : Fin 3) = 0
    ∧ win0_3.xsize (grid0.coords t) (0 : Fin 3) = 1
    ∧ (t.val % 41 = 40 → win0_3.xsize (grid0.coords t) (1 : Fin 3) = 2)
    ∧ (t.val % 41 ≠ 40 → win0_3.xsize (grid0.coords t) (1 : Fin 3) = 4096)
    ∧ win0_3.xsize (grid0.coords t) (2 : Fin 3) = 64 :=
  (by decide +kernel : ∀ t : Fin grid0.N, _)

/-- An index of the result array is in point `t`'s block iff, on each axis, its coordinate is at least the
    block's first and below the block's first plus the number of coordinates the block keeps there. -/
theorem mem_blk (t : Fin cfg0.N) (i : S2x163842x64.Idx) :
    i ∈ ((cfg0.win 3).blk t).view.set ↔ ∀ a : Fin 3, win0_3.index t a * S1x4096x64.size a ≤ (i a).val
      ∧ (i a).val < win0_3.index t a * S1x4096x64.size a + win0_3.xsize (grid0.coords t) a := by
  show i ∈ ((View.whole main_v4).slice (win0_3.rect t)).set ↔ _
  rw [View.set_slice_whole, Rect.mem_set_unit]
  exact Iff.rfl

/-- Every index of the result array lies in the part inside the array of some point's block, and every point
    writes its block back. -/
theorem cover (i : S2x163842x64.Idx) :
    ∃ t : Fin cfg0.N, (cfg0.win 3).flush t = true ∧ i ∈ ((cfg0.win 3).blk t).view.set := by
  have h0 : (i 0).val < 2 := (i 0).isLt
  have h1 : (i 1).val < 163842 := (i 1).isLt
  have h2 : (i 2).val < 64 := (i 2).isLt
  have hN : (i 0).val * 41 + (i 1).val / 4096 < cfg0.N := by
    show _ < grid0.N
    rw [N_0]; omega
  refine ⟨⟨(i 0).val * 41 + (i 1).val / 4096, hN⟩, flush0_3 _, ?_⟩
  rw [mem_blk]
  obtain ⟨e0, e1, e2, x0, x1a, x1b, x2⟩ := tab ⟨(i 0).val * 41 + (i 1).val / 4096, hN⟩
  have tv : (⟨(i 0).val * 41 + (i 1).val / 4096, hN⟩ : Fin cfg0.N).val = (i 0).val * 41 + (i 1).val / 4096 := rfl
  rw [tv] at e0 e1 x1a x1b
  intro a
  match a with
  | ⟨0, _⟩ =>
    show win0_3.index ⟨(i 0).val * 41 + (i 1).val / 4096, hN⟩ (0 : Fin 3) * 1 ≤ (i 0).val
      ∧ (i 0).val < win0_3.index ⟨(i 0).val * 41 + (i 1).val / 4096, hN⟩ (0 : Fin 3) * 1
          + win0_3.xsize (grid0.coords ⟨(i 0).val * 41 + (i 1).val / 4096, hN⟩) (0 : Fin 3)
    rw [e0, x0]; omega
  | ⟨1, _⟩ =>
    show win0_3.index ⟨(i 0).val * 41 + (i 1).val / 4096, hN⟩ (1 : Fin 3) * 4096 ≤ (i 1).val
      ∧ (i 1).val < win0_3.index ⟨(i 0).val * 41 + (i 1).val / 4096, hN⟩ (1 : Fin 3) * 4096
          + win0_3.xsize (grid0.coords ⟨(i 0).val * 41 + (i 1).val / 4096, hN⟩) (1 : Fin 3)
    rw [e1]
    by_cases hc : ((i 0).val * 41 + (i 1).val / 4096) % 41 = 40
    · rw [x1a hc]; omega
    · rw [x1b hc]; omega
  | ⟨2, _⟩ =>
    show win0_3.index ⟨(i 0).val * 41 + (i 1).val / 4096, hN⟩ (2 : Fin 3) * 64 ≤ (i 2).val
      ∧ (i 2).val < win0_3.index ⟨(i 0).val * 41 + (i 1).val / 4096, hN⟩ (2 : Fin 3) * 64
          + win0_3.xsize (grid0.coords ⟨(i 0).val * 41 + (i 1).val / 4096, hN⟩) (2 : Fin 3)
    rw [e2, x2]; omega

end Cert.KernelIdeal.Cover

end
-- ==== Proof.KernelPrefix.lean ====
import proofs.«139738_j45500883534541_1_alg».proof.Proof.Gen.KernelIdeal.Frame
import Idealize.ShloMosaic.Lib.StableHlo.Run
import Idealize.ShloMosaic.PureOps.Ideal
import Idealize.ShloMosaic.Lib.ValueLayout

noncomputable section

namespace Cert.KernelIdeal.Prefix

open Cert.KernelIdeal Cert.KernelIdeal.Gen Idealize.ShloMosaic Idealize.ShloMosaic.TcCoe Idealize.SL.Sem
  Idealize.ShloMosaic.StableHlo Idealize.ShloMosaic.ValueIdx

/-- A value carried to a typed reference's buffer and back is the value: the two transports are
    along one equation and its inverse. -/
theorem ofBuf_toBuf {sig : RefSig} {Val : EltTy → Type} {T : BufTy} (x : StableHlo.TRef sig T) (v : T.Contents Val) :
    x.ofBuf (x.toBuf v) = v := by
  obtain ⟨r, h, h2, h3⟩ := x; subst h; rfl

variable {F : FTy → Type} [FloatOps F]

/-- The index table with its negative entries wrapped by the gathered axis' extent:
    `idx[j] < 0 ? idx[j] + 163842 : idx[j]`. -/
def wrapIdx (idx : (⟨S1146894, .i32⟩ : BufTy).Contents (Elt F)) : (⟨S1146894, .i32⟩ : BufTy).Contents (Elt F) :=
  select (cmpi .slt idx (broadcastInDim S1146894 ![] bcast_S_S1146894 (constantI S_ 32 0#32)))
    (addi idx (broadcastInDim S1146894 ![] bcast_S_S1146894 (constantI S_ 32 163842#32))) idx

/-- The wrapped table as a column of one-component index vectors. -/
def idxCol (idx : (⟨S1146894, .i32⟩ : BufTy).Contents (Elt F)) : (⟨S1146894x1, .i32⟩ : BufTy).Contents (Elt F) :=
  broadcastInDim S1146894x1 ![0] bcast_S1146894_S1146894x1_0 (wrapIdx idx)

/-- Per entry of the table, whether the wrapped index lies in `[0, 163841]`. -/
def inRange (idx : (⟨S1146894, .i32⟩ : BufTy).Contents (Elt F)) : (⟨S1146894, .i1⟩ : BufTy).Contents (Elt F) :=
  Host.reduce IntOp.andi
    (andi (cmpi .sge (idxCol idx) (broadcastInDim S1146894x1 ![] bcast_S_S1146894x1 (constantI S_ 32 0#32)))
      (cmpi .sle (idxCol idx) (broadcastInDim S1146894x1 ![0, 1] bcast_S1x1_S1146894x1_0_1
        (broadcastInDim S1x1 ![1] bcast_S1_S1x1_1 (constantI S1 32 163841#32)))))
    (constantI S_ 1 1#1) reducesTo_S1146894x1_S1146894_d1 h_S_

/-- `take` along the last axis: the gather at the wrapped indices where they are in range, the
    fill word elsewhere. -/
def takeOf (y : (⟨S2x64x163842, .f32⟩ : BufTy).Contents (Elt F)) (idx : (⟨S1146894, .i32⟩ : BufTy).Contents (Elt F)) :
    (⟨S2x64x1146894, .f32⟩ : BufTy).Contents (Elt F) :=
  select (broadcastInDim S2x64x1146894 ![2] bcast_S1146894_S2x64x1146894_2 (inRange idx))
    (Host.gather gather_S2x64x163842_S1146894x1_S2x64x1146894_01_2_n_n_2_1_2641 y (idxCol idx))
    (broadcastInDim S2x64x1146894 ![] bcast_S_S2x64x1146894 (constant S_ .f32 0x7FC00000#32))

/-- The matrix both programs multiply: `x` with its last two axes exchanged, taken along the last
    axis at the table `idx`, read as `[2, 163842, 448]`. -/
def matOf (x : (⟨S2x163842x64, .f32⟩ : BufTy).Contents (Elt F)) (idx : (⟨S1146894, .i32⟩ : BufTy).Contents (Elt F)) :
    (⟨S2x163842x448, .f32⟩ : BufTy).Contents (Elt F) :=
  fun i => shapeCast S2x163842x448
    (takeOf (transpose S2x64x163842 [0, 2, 1] x transposes_S2x163842x64_S2x64x163842_0_2_1) idx)
    shapeCasts_S2x64x1146894_S2x163842x448 i

attribute [local irreducible] Host.gather Host.reduce in
/-- The region finds at `main_v2` the matrix `matOf` of the launched `x` and index table. -/
theorem V_main_v2 (m : (ℓ : Loc nD τ sig) → Buf (Elt Ideal) ℓ) (c : Dev nD) :
    (Gen.V (F := Ideal) m c main_v2 : (⟨S2x163842x448, .f32⟩ : BufTy).Contents (Elt Ideal))
      = matOf (F := Ideal) (m ((c : Thread nD τ).loc main_arg0)) (m ((c : Thread nD τ).loc main_arg3)) := by
  dsimp only [Gen.V]
  simp only [hostOps0, hostOps0_1, hostOps0_2, List.flatten_cons, List.flatten_nil, List.append_nil, List.cons_append,
    List.nil_append]
  after_results_simp
  simp only [ofBuf_toBuf]
  rfl

/-- The region finds at `main_v3` the launched weight matrix transposed. -/
theorem V_main_v3 (m : (ℓ : Loc nD τ sig) → Buf (Elt Ideal) ℓ) (c : Dev nD) :
    (Gen.V (F := Ideal) m c main_v3 : (⟨S448x64, .f32⟩ : BufTy).Contents (Elt Ideal))
      = transpose S448x64 [1, 0] (m ((c : Thread nD τ).loc main_arg1)) transposes_S64x448_S448x64_1_0 := by
  dsimp only [Gen.V]
  simp only [hostOps0, hostOps0_1, hostOps0_2, List.flatten_cons, List.flatten_nil, List.append_nil, List.cons_append,
    List.nil_append]
  after_results_simp

/-- Entry `(k, o)` of the matrix at `main_v3` is entry `(o, k)` of the launched weight matrix. -/
theorem V_main_v3_apply (m : (ℓ : Loc nD τ sig) → Buf (Elt Ideal) ℓ) (c : Dev nD) (j : S448x64.Idx) :
    (Gen.V (F := Ideal) m c main_v3 : (⟨S448x64, .f32⟩ : BufTy).Contents (Elt Ideal)) j
      = (m ((c : Thread nD τ).loc main_arg1) : (⟨S64x448, .f32⟩ : BufTy).Contents (Elt Ideal))
          (ix2 (n0 := 64) (n1 := 448) (j 1) (j 0)) := by
  rw [V_main_v3]
  exact transpose_apply _ _ _ _ _ fun b => match b with | ⟨0, _⟩ => rfl | ⟨1, _⟩ => rfl

/-- info: 'Cert.KernelIdeal.Prefix.V_main_v2' depends on axioms: [propext, Classical.choice, Quot.sound] -/
#guard_msgs in #print axioms V_main_v2
/-- info: 'Cert.KernelIdeal.Prefix.V_main_v3_apply' depends on axioms: [propext, Classical.choice, Quot.sound] -/
#guard_msgs in #print axioms V_main_v3_apply

end Cert.KernelIdeal.Prefix

end
-- ==== Proof.Spec.lean ====
/-
  The linear layer both programs compute, as one function of three arrays.

  For a matrix stack `mat` of shape [2, 163842, 448], a weight matrix `wt` of shape [448, 64] and a bias
  row `bias` of length 64, the result at (b, n, o) is

      Σ_{k < 448} mat[b, n, k] · wt[k, o]  +  bias[o]

  on the extended reals.  Each result entry depends on ONE row (b, n) of `mat`, on one column of `wt`
  and on one entry of the bias: the rows of the result are independent of one another, which is why the
  result may be computed in any blocks of rows.
-/
import Idealize.ShloMosaic.PureOps.Ideal
import Idealize.ShloMosaic.Lib.ValueIdx

noncomputable section

namespace Cert.Spec

open Idealize.ShloMosaic Idealize.ShloMosaic.ValueIdx

/-- The stacked rows: [2, 163842, 448]. -/
abbrev SMat : Shape := ⟨3, ![2, 163842, 448]⟩
/-- The weights, contraction axis first: [448, 64]. -/
abbrev SWt : Shape := ⟨2, ![448, 64]⟩
/-- The bias row: [64]. -/
abbrev SBias : Shape := ⟨1, ![64]⟩
/-- The result: [2, 163842, 64]. -/
abbrev SOut : Shape := ⟨3, ![2, 163842, 64]⟩

/-- Row (b, n) of `mat` against column o of `wt`, plus the bias at o. -/
def linOut (mat : SMat.Idx → EReal) (wt : SWt.Idx → EReal) (bias : SBias.Idx → EReal) : SOut.Idx → EReal :=
  fun i => (∑ k : Fin 448, mat (ix3 (n0 := 2) (n1 := 163842) (n2 := 448) (i 0) (i 1) k)
      * wt (ix2 (n0 := 448) (n1 := 64) k (i 2))) + bias (ix1 (n := 64) (i 2))

theorem linOut_apply (mat : SMat.Idx → EReal) (wt : SWt.Idx → EReal) (bias : SBias.Idx → EReal)
    (b : Fin 2) (n : Fin 163842) (o : Fin 64) :
    linOut mat wt bias (ix3 b n o) = (∑ k : Fin 448, mat (ix3 b n k) * wt (ix2 k o)) + bias (ix1 o) := rfl

end Cert.Spec

end
-- ==== Proof.ValueI.lean ====
/-
  What the idealized kernel's result array holds after the run.

  Point (b, n) writes back, for each row r of its block inside the array and each column o,

      Σ_{k < 448} mat[b, 4096·n + r, k] · wt[k, o]  +  bias[o],

  where mat, wt and bias are the arrays the kernel is launched on: entry (b, 4096·n + r, o) of ONE function of those
  three arrays, the linear layer.  The blocks' parts inside the array cover every row of both batches (rows
  4096·n … 4096·n + 4095 for n < 40, rows 163840 and 163841 for n = 40), so the array ends holding the linear layer.
  The three arrays are in turn functions of the arguments: mat the gathered rows, wt the transposed weights, bias
  the bias argument itself.
-/
import proofs.«139738_j45500883534541_1_alg».proof.Proof.RunI
import proofs.«139738_j45500883534541_1_alg».proof.Proof.Blocks
import proofs.«139738_j45500883534541_1_alg».proof.Proof.Cover
import proofs.«139738_j45500883534541_1_alg».proof.Proof.KernelPrefix
import proofs.«139738_j45500883534541_1_alg».proof.Proof.Spec
import Idealize.ShloMosaic.Lib.Pipeline.Value

set_option maxRecDepth 16384

noncomputable section

namespace Cert.KernelIdeal.Value

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (m : (ℓ : Loc nD τ sig) → Buf (Elt Ideal) ℓ) (ρ : Dev nD → PrngReg)

/-- The linear layer of the three arrays the kernel is launched on. -/
def G (c : Dev nD) : S2x163842x64.Idx → Elt Ideal .f32 :=
  Cert.Spec.linOut (Gen.V m c main_v2 : S2x163842x448.Idx → Elt Ideal .f32)
    (Gen.V m c main_v3 : S448x64.Idx → Elt Ideal .f32) (Gen.V m c main_arg2 : S64.Idx → Elt Ideal .f32)

/-- A row of the staged block that lies inside the array is a row of the fetched part. -/
theorem rows_inside (c : Dev nD) (t : Fin cfg0.N) (r : Fin 4096) (k : Fin 448)
    (hin : r.val < win0_3.xsize (grid0.coords t) 1) :
    ∃ j' : (win0_0.xblock (grid0.coords t)).Idx, (j' 1).val = r.val ∧ (j' 2).val = k.val
      ∧ Run.rows m c t (ix3 (0 : Fin 1) r k) = iblk m c 0 t j' := by
  obtain ⟨h00, h01, h02, -, -⟩ := Run.cuts t
  have hm : win0_0.moved (grid0.coords t) (ix3 (0 : Fin 1) r k) = true :=
    (win0_0.moved_iff _ _).mpr fun a => by
      match a with
      | ⟨0, _⟩ => show (0 : ℕ) < win0_0.xsize (grid0.coords t) 0; rw [h00]; exact Nat.one_pos
      | ⟨1, _⟩ => show r.val < win0_0.xsize (grid0.coords t) 1; rw [h01]; exact hin
      | ⟨2, _⟩ => show k.val < win0_0.xsize (grid0.coords t) 2; rw [h02]; exact k.isLt
  exact ⟨_, rfl, rfl, Run.fill_moved _ _ _ _ hm⟩

/-- What point `t` writes back is the linear layer read through the point's block. -/
theorem flushed_eq (c : Dev nD) (t : Fin cfg0.N) :
    (Run.dats m 0 c).flushed (3 : Fin 4) t = ((cfg0.win 3).blk t).view.read (Elt Ideal) (G m c) := by
  funext j
  obtain ⟨hB, hR, ho, hj0⟩ := Blocks.inb t j
  have hin : (j 1).val < win0_3.xsize (grid0.coords t) 1 := (j 1).isLt
  have hr : (j 1).val < 4096 := Nat.lt_of_lt_of_le hin (win0_3.xsize_le (grid0.coords t) 1)
  have e : win0_3.xinj (grid0.coords t) j = ix3 (0 : Fin 1) (⟨(j 1).val, hr⟩ : Fin 4096) (⟨(j 2).val, ho⟩ : Fin 64) :=
    funext fun a => Fin.ext (by
      match a with
      | ⟨0, _⟩ => exact hj0
      | ⟨1, _⟩ => rfl
      | ⟨2, _⟩ => rfl)
  rw [View.read_apply]
  refine (?_ : _ = G m c (((cfg0.win 3).blk t).view.emb j)).trans (cast_eq_iff_heq.mpr HEq.rfl).symm
  show Run.outOf (Run.rows m c t) (iblk m c 1 t) (iblk m c 2 t) (win0_3.xinj (grid0.coords t) j) = _
  rw [e, Blocks.emb3 t j ⟨t.val / 41, hB⟩ ⟨(t.val % 41) * 4096 + (j 1).val, hR⟩ ⟨(j 2).val, ho⟩ rfl rfl rfl]
  unfold G
  rw [Cert.Spec.linOut_apply]
  refine (Payload.pay_apply _ _ _ _ _).trans ?_
  rw [Blocks.iblk2_apply]
  refine congrArg (· + _) (Finset.sum_congr rfl fun k _ => ?_)
  obtain ⟨j', h1, h2, hrow⟩ := rows_inside m c t ⟨(j 1).val, hr⟩ k hin
  rw [Blocks.iblk1_apply, hrow,
    Blocks.iblk0_apply m c t j' ⟨t.val / 41, hB⟩ ⟨(t.val % 41) * 4096 + (j 1).val, hR⟩ k rfl (by rw [h1]) (by rw [h2])]

/-- The result array after the run is the linear layer of the three arrays the kernel is launched on. -/
theorem final (c : Dev nD) : (Run.dats m 0 c).arrAt (3 : Fin 4) cfg0.N = G m c :=
  (Run.dats m 0 c).arrAt_eq_of_cover 3 (G m c) (fun t _ => flushed_eq m c t) Cover.cover

/-- The linear layer of the gathered rows, the transposed weights and the bias, as a function of the arguments. -/
def out (c : Dev nD) : S2x163842x64.Idx → Elt Ideal .f32 :=
  Cert.Spec.linOut (Prefix.matOf (F := Ideal) (m ((c : Thread nD τ).loc main_arg0)) (m ((c : Thread nD τ).loc main_arg3)))
    (fun j => (m ((c : Thread nD τ).loc main_arg1) : S64x448.Idx → Elt Ideal .f32) (ix2 (n0 := 64) (n1 := 448) (j 1) (j 0)))
    (m ((c : Thread nD τ).loc main_arg2) : S64.Idx → Elt Ideal .f32)

/-- The arrays the kernel is launched on, as functions of the arguments. -/
theorem G_eq (c : Dev nD) : G m c = out m c := by
  unfold G out
  rw [Prefix.V_main_v2 m c, Gen.V_main_arg2 m c]
  exact congrArg (fun w => Cert.Spec.linOut _ w _) (funext (Prefix.V_main_v3_apply m c))

/-- Every weakly fair execution of the idealized kernel's @main ends, nothing faulting, with the result array at the
    linear layer of the arguments and the arguments unchanged. -/
theorem run : θ_run defs (onTc (τ := τ) (main (F := Ideal))) ⟨m, fun _ => 0, ρ⟩ (fun r => ∀ c : Dev nD,
      r.2.mem ((c.tc : Thread nD τ).loc main_v4) = out m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨((h c).1 3).trans ((final m c).trans (G_eq m c)),
      ((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).1 2).trans (((Run.dats m 0 c).arrAt_in 2 rfl _).trans (V_main_arg2 m c)),
      ((h c).2 main_arg3 (Pipeline.mem_restRefs_of main_arg3 (by decide) (by decide))).trans (V_main_arg3 m c)⟩)
    (Run.run_main m ρ)

end Cert.KernelIdeal.Value

end
-- ==== Proof.RefRun.lean ====
/-
  The reference program's run, read back.

  @main of the reference is a straight line of thirty host operations once its two module-local functions are
  substituted at their calls: the transpose of x, the twenty-four operations of the index-take (the negative
  indices wrapped by a select, the gather along the last axis, the in-range mask reduced over its unit axis,
  the out-of-range positions filled by a constant), the reshape to [2, 163842, 448], then the contraction
  against the weights, the bias broadcast twice and the sum.  The first twenty-six compose to ONE function
  `matOf` of the two arguments x and idx; the last four apply the linear layer to it.
-/
import proofs.«139738_j45500883534541_1_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- A value carried to a typed reference's buffer type and back is the value. -/
theorem ofBuf_toBuf {sig : RefSig} {Val : EltTy → Type} {T : BufTy} (x : StableHlo.TRef sig T) (v : T.Contents Val) :
    x.ofBuf (x.toBuf v) = v := by
  obtain ⟨r, h, h2, h3⟩ := x; subst h; rfl

/-- The fold over a concatenation is the fold over the second list from the fold over the first. -/
theorem after_app {τ : Topo} {sig : RefSig} {Val : EltTy → Type} :
    ∀ (l₁ l₂ : List (HloOp τ sig Val)) (V : Valuation τ sig Val), after (l₁ ++ l₂) V = after l₂ (after l₁ V)
  | [], _, _ => rfl
  | op :: l₁, l₂, V => by rw [List.cons_append, after_cons, after_cons, after_app l₁ l₂]

/-! ## The operations -/

/-- The first twenty-six operations: the transpose, the index-take with its select substituted at the call, the
    reshape. -/
abbrev opsA : List (HloOp τ sig (Elt F)) :=
  [ unary main_arg0 main_v0 ((transpose S2x64x163842 [0, 2, 1] · transposes_S2x163842x64_S2x64x163842_0_2_1) : (⟨S2x163842x64, .f32⟩ : BufTy).Contents (Elt F) → (⟨S2x64x163842, .f32⟩ : BufTy).Contents (Elt F)),
    TRef.nullary main_call0.c (constantI S_ 32 0#32),
    TRef.unary main_call0.c main_call0.v0 (broadcastInDim S1146894 ![] bcast_S_S1146894),
    TRef.binary (.of main_arg3) main_call0.v0 main_call0.v1 (cmpi .slt),
    TRef.nullary main_call0.c_0 (constantI S_ 32 163842#32),
    TRef.unary main_call0.c_0 main_call0.v2 (broadcastInDim S1146894 ![] bcast_S_S1146894),
    TRef.binary (.of main_arg3) main_call0.v2 main_call0.v3 addi,
    TRef.ternary main_call0.v1 main_call0.v3 (.of main_arg3) main_call0.call0.v0 select,
    TRef.unary main_call0.call0.v0 main_call0.v5 (broadcastInDim S1146894x1 ![0] bcast_S1146894_S1146894x1_0),
    TRef.nullary main_call0.c_1 (constantI S1 32 163841#32),
    TRef.nullary main_call0.c_2 (constantI S_ 32 0#32),
    TRef.unary main_call0.c_2 main_call0.v6 (broadcastInDim S1146894x1 ![] bcast_S_S1146894x1),
    TRef.binary main_call0.v5 main_call0.v6 main_call0.v7 (cmpi .sge),
    TRef.unary main_call0.c_1 main_call0.v8 (broadcastInDim S1x1 ![1] bcast_S1_S1x1_1),
    TRef.unary main_call0.v8 main_call0.v9 (broadcastInDim S1146894x1 ![0, 1] bcast_S1x1_S1146894x1_0_1),
    TRef.binary main_call0.v5 main_call0.v9 main_call0.v10 (cmpi .sle),
    TRef.binary main_call0.v7 main_call0.v10 main_call0.v11 andi,
    TRef.nullary main_call0.c_3 (constantI S_ 1 1#1),
    TRef.binary main_call0.v11 main_call0.c_3 main_call0.v12 (fun x v => Host.reduce IntOp.andi x v reducesTo_S1146894x1_S1146894_d1 h_S_),
    TRef.binary (.of main_v0) main_call0.v5 main_call0.v13 (fun x i => Host.gather gather_S2x64x163842_S1146894x1_S2x64x1146894_01_2_n_n_2_1_2641 x i),
    TRef.unary main_call0.v12 main_call0.v14 (broadcastInDim S2x64x1146894 ![2] bcast_S1146894_S2x64x1146894_2),
    TRef.nullary main_call0.cst (constant S_ .f32 0x7FC00000#32),
    TRef.unary main_call0.cst main_call0.v15 (broadcastInDim S2x64x1146894 ![] bcast_S_S2x64x1146894),
    TRef.ternary main_call0.v14 main_call0.v13 main_call0.v15 main_call0.v16 select,
    reshape main_v1 main_v2 rfl shapeCasts_S2x64x1146894_S2x163842x448 ]

/-- The last four: the contraction against the weights, the bias broadcast twice, the sum. -/
abbrev opsB : List (HloOp τ sig (Elt F)) :=
  [ binary main_v2 main_arg1 main_v3 ((fun l r => Host.dotGeneral dot_S2x163842x448_S64x448_S2x163842x64_2_1_01_0_n_n none l r) : (⟨S2x163842x448, .f32⟩ : BufTy).Contents (Elt F) → (⟨S64x448, .f32⟩ : BufTy).Contents (Elt F) → (⟨S2x163842x64, .f32⟩ : BufTy).Contents (Elt F)),
    unary main_arg2 main_v4 (broadcastInDim S1x1x64 ![2] bcast_S64_S1x1x64_2 : (⟨S64, .f32⟩ : BufTy).Contents (Elt F) → (⟨S1x1x64, .f32⟩ : BufTy).Contents (Elt F)),
    unary main_v4 main_v5 (broadcastInDim S2x163842x64 ![0, 1, 2] bcast_S1x1x64_S2x163842x64_0_1_2 : (⟨S1x1x64, .f32⟩ : BufTy).Contents (Elt F) → (⟨S2x163842x64, .f32⟩ : BufTy).Contents (Elt F)),
    binary main_v3 main_v5 main_v6 (addf : (⟨S2x163842x64, .f32⟩ : BufTy).Contents (Elt F) → (⟨S2x163842x64, .f32⟩ : BufTy).Contents (Elt F) → (⟨S2x163842x64, .f32⟩ : BufTy).Contents (Elt F)) ]

/-- @main's thirty operations, in order. -/
abbrev ops : List (HloOp τ sig (Elt F)) :=
  [ unary main_arg0 main_v0 ((transpose S2x64x163842 [0, 2, 1] · transposes_S2x163842x64_S2x64x163842_0_2_1) : (⟨S2x163842x64, .f32⟩ : BufTy).Contents (Elt F) → (⟨S2x64x163842, .f32⟩ : BufTy).Contents (Elt F)),
    TRef.nullary main_call0.c (constantI S_ 32 0#32),
    TRef.unary main_call0.c main_call0.v0 (broadcastInDim S1146894 ![] bcast_S_S1146894),
    TRef.binary (.of main_arg3) main_call0.v0 main_call0.v1 (cmpi .slt),
    TRef.nullary main_call0.c_0 (constantI S_ 32 163842#32),
    TRef.unary main_call0.c_0 main_call0.v2 (broadcastInDim S1146894 ![] bcast_S_S1146894),
    TRef.binary (.of main_arg3) main_call0.v2 main_call0.v3 addi,
    TRef.ternary main_call0.v1 main_call0.v3 (.of main_arg3) main_call0.call0.v0 select,
    TRef.unary main_call0.call0.v0 main_call0.v5 (broadcastInDim S1146894x1 ![0] bcast_S1146894_S1146894x1_0),
    TRef.nullary main_call0.c_1 (constantI S1 32 163841#32),
    TRef.nullary main_call0.c_2 (constantI S_ 32 0#32),
    TRef.unary main_call0.c_2 main_call0.v6 (broadcastInDim S1146894x1 ![] bcast_S_S1146894x1),
    TRef.binary main_call0.v5 main_call0.v6 main_call0.v7 (cmpi .sge),
    TRef.unary main_call0.c_1 main_call0.v8 (broadcastInDim S1x1 ![1] bcast_S1_S1x1_1),
    TRef.unary main_call0.v8 main_call0.v9 (broadcastInDim S1146894x1 ![0, 1] bcast_S1x1_S1146894x1_0_1),
    TRef.binary main_call0.v5 main_call0.v9 main_call0.v10 (cmpi .sle),
    TRef.binary main_call0.v7 main_call0.v10 main_call0.v11 andi,
    TRef.nullary main_call0.c_3 (constantI S_ 1 1#1),
    TRef.binary main_call0.v11 main_call0.c_3 main_call0.v12 (fun x v => Host.reduce IntOp.andi x v reducesTo_S1146894x1_S1146894_d1 h_S_),
    TRef.binary (.of main_v0) main_call0.v5 main_call0.v13 (fun x i => Host.gather gather_S2x64x163842_S1146894x1_S2x64x1146894_01_2_n_n_2_1_2641 x i),
    TRef.unary main_call0.v12 main_call0.v14 (broadcastInDim S2x64x1146894 ![2] bcast_S1146894_S2x64x1146894_2),
    TRef.nullary main_call0.cst (constant S_ .f32 0x7FC00000#32),
    TRef.unary main_call0.cst main_call0.v15 (broadcastInDim S2x64x1146894 ![] bcast_S_S2x64x1146894),
    TRef.ternary main_call0.v14 main_call0.v13 main_call0.v15 main_call0.v16 select,
    reshape main_v1 main_v2 rfl shapeCasts_S2x64x1146894_S2x163842x448,
    binary main_v2 main_arg1 main_v3 ((fun l r => Host.dotGeneral dot_S2x163842x448_S64x448_S2x163842x64_2_1_01_0_n_n none l r) : (⟨S2x163842x448, .f32⟩ : BufTy).Contents (Elt F) → (⟨S64x448, .f32⟩ : BufTy).Contents (Elt F) → (⟨S2x163842x64, .f32⟩ : BufTy).Contents (Elt F)),
    unary main_arg2 main_v4 (broadcastInDim S1x1x64 ![2] bcast_S64_S1x1x64_2 : (⟨S64, .f32⟩ : BufTy).Contents (Elt F) → (⟨S1x1x64, .f32⟩ : BufTy).Contents (Elt F)),
    unary main_v4 main_v5 (broadcastInDim S2x163842x64 ![0, 1, 2] bcast_S1x1x64_S2x163842x64_0_1_2 : (⟨S1x1x64, .f32⟩ : BufTy).Contents (Elt F) → (⟨S2x163842x64, .f32⟩ : BufTy).Contents (Elt F)),
    binary main_v3 main_v5 main_v6 (addf : (⟨S2x163842x64, .f32⟩ : BufTy).Contents (Elt F) → (⟨S2x163842x64, .f32⟩ : BufTy).Contents (Elt F) → (⟨S2x163842x64, .f32⟩ : BufTy).Contents (Elt F)) ]

theorem ops_split : (ops : List (HloOp τ sig (Elt F))) = opsA ++ opsB := rfl

set_option maxRecDepth 1024 in
/-- @main is that straight line: the two functions' bodies substituted at their calls and the calls' records read
    at their fields, both sides are one chain of steps once sequencing is re-associated. -/
theorem main_eq (c : Dev nD) : main (F := F) c = seq ops := by
  simp only [main, fn_take.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨unary_bufs_sub .., nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub .., reshape_bufs_sub .., binary_bufs_sub .., unary_bufs_sub .., unary_bufs_sub .., binary_bufs_sub ..⟩

/-- On every device, from any memory with zero counters: every weakly fair execution of @main terminates, and
    every buffer ends at the operations' fold over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

/-! ## The stacked rows -/

/-- The array the first twenty-six operations compute from x and the index table: x with its last two axes
    exchanged; each index below zero moved up by 163842; the columns of the exchanged x gathered at those
    indices; every position whose index is outside 0 … 163841 replaced by the constant word; the result read in
    row-major order at [2, 163842, 448]. -/
def matOf (x : (⟨S2x163842x64, .f32⟩ : BufTy).Contents (Elt F)) (idx : (⟨S1146894, .i32⟩ : BufTy).Contents (Elt F)) :
    (⟨S2x163842x448, .f32⟩ : BufTy).Contents (Elt F) :=
  fun i => shapeCast S2x163842x448
    (select
      (broadcastInDim S2x64x1146894 ![2] bcast_S1146894_S2x64x1146894_2
        (Host.reduce IntOp.andi
          (andi
            (cmpi .sge
              (broadcastInDim S1146894x1 ![0] bcast_S1146894_S1146894x1_0
                (select (cmpi .slt idx (broadcastInDim S1146894 ![] bcast_S_S1146894 (constantI S_ 32 0#32)))
                  (addi idx (broadcastInDim S1146894 ![] bcast_S_S1146894 (constantI S_ 32 163842#32))) idx))
              (broadcastInDim S1146894x1 ![] bcast_S_S1146894x1 (constantI S_ 32 0#32)))
            (cmpi .sle
              (broadcastInDim S1146894x1 ![0] bcast_S1146894_S1146894x1_0
                (select (cmpi .slt idx (broadcastInDim S1146894 ![] bcast_S_S1146894 (constantI S_ 32 0#32)))
                  (addi idx (broadcastInDim S1146894 ![] bcast_S_S1146894 (constantI S_ 32 163842#32))) idx))
              (broadcastInDim S1146894x1 ![0, 1] bcast_S1x1_S1146894x1_0_1
                (broadcastInDim S1x1 ![1] bcast_S1_S1x1_1 (constantI S1 32 163841#32)))))
          (constantI S_ 1 1#1) reducesTo_S1146894x1_S1146894_d1 h_S_))
      (Host.gather gather_S2x64x163842_S1146894x1_S2x64x1146894_01_2_n_n_2_1_2641
        (transpose S2x64x163842 [0, 2, 1] x transposes_S2x163842x64_S2x64x163842_0_2_1)
        (broadcastInDim S1146894x1 ![0] bcast_S1146894_S1146894x1_0
          (select (cmpi .slt idx (broadcastInDim S1146894 ![] bcast_S_S1146894 (constantI S_ 32 0#32)))
            (addi idx (broadcastInDim S1146894 ![] bcast_S_S1146894 (constantI S_ 32 163842#32))) idx)))
      (broadcastInDim S2x64x1146894 ![] bcast_S_S2x64x1146894 (constant S_ .f32 0x7FC00000#32)))
    shapeCasts_S2x64x1146894_S2x163842x448 i

attribute [local irreducible] Host.gather Host.reduce in
/-- After the first twenty-six operations, from any contents, the reshape's buffer holds `matOf` of the two
    arguments' contents. -/
theorem matA (W : Valuation τ sig (Elt F)) :
    after opsA W (main_v2 : DevRef τ sig) = matOf (W (main_arg0 : DevRef τ sig)) (W (main_arg3 : DevRef τ sig)) := by
  after_results_simp
  simp only [ofBuf_toBuf]
  rfl

/-- The first twenty-six operations write none of the four arguments. -/
theorem arg0A (W : Valuation τ sig (Elt F)) : after opsA W (main_arg0 : DevRef τ sig) = W (main_arg0 : DevRef τ sig) := by
  after_results_simp
theorem arg1A (W : Valuation τ sig (Elt F)) : after opsA W (main_arg1 : DevRef τ sig) = W (main_arg1 : DevRef τ sig) := by
  after_results_simp
theorem arg2A (W : Valuation τ sig (Elt F)) : after opsA W (main_arg2 : DevRef τ sig) = W (main_arg2 : DevRef τ sig) := by
  after_results_simp
theorem arg3A (W : Valuation τ sig (Elt F)) : after opsA W (main_arg3 : DevRef τ sig) = W (main_arg3 : DevRef τ sig) := by
  after_results_simp

/-- After the last four operations, from any contents, the result buffer holds the contraction of the reshape's
    buffer against the weights plus the bias broadcast along the first two axes. -/
theorem outB (V : Valuation τ sig (Elt F)) :
    after opsB V (main_v6 : DevRef τ sig)
      = addf (Host.dotGeneral dot_S2x163842x448_S64x448_S2x163842x64_2_1_01_0_n_n none (V (main_v2 : DevRef τ sig)) (V (main_arg1 : DevRef τ sig)))
          (broadcastInDim S2x163842x64 ![0, 1, 2] bcast_S1x1x64_S2x163842x64_0_1_2
            (broadcastInDim S1x1x64 ![2] bcast_S64_S1x1x64_2 (V (main_arg2 : DevRef τ sig)))) := by
  after_results

/-- The last four write none of the four arguments. -/
theorem arg0B (V : Valuation τ sig (Elt F)) : after opsB V (main_arg0 : DevRef τ sig) = V (main_arg0 : DevRef τ sig) := by
  after_results
theorem arg1B (V : Valuation τ sig (Elt F)) : after opsB V (main_arg1 : DevRef τ sig) = V (main_arg1 : DevRef τ sig) := by
  after_results
theorem arg2B (V : Valuation τ sig (Elt F)) : after opsB V (main_arg2 : DevRef τ sig) = V (main_arg2 : DevRef τ sig) := by
  after_results
theorem arg3B (V : Valuation τ sig (Elt F)) : after opsB V (main_arg3 : DevRef τ sig) = V (main_arg3 : DevRef τ sig) := by
  after_results

/-! ## The whole line -/

/-- After all thirty, the result buffer holds the linear layer applied to `matOf` of x and the index table. -/
theorem out_eq (V : Valuation τ sig (Elt F)) :
    after ops V (main_v6 : DevRef τ sig)
      = addf (Host.dotGeneral dot_S2x163842x448_S64x448_S2x163842x64_2_1_01_0_n_n none
            (matOf (V (main_arg0 : DevRef τ sig)) (V (main_arg3 : DevRef τ sig))) (V (main_arg1 : DevRef τ sig)))
          (broadcastInDim S2x163842x64 ![0, 1, 2] bcast_S1x1x64_S2x163842x64_0_1_2
            (broadcastInDim S1x1x64 ![2] bcast_S64_S1x1x64_2 (V (main_arg2 : DevRef τ sig)))) := by
  rw [ops_split, after_app, outB, matA, arg1A, arg2A]

theorem arg0_eq (V : Valuation τ sig (Elt F)) : after ops V (main_arg0 : DevRef τ sig) = V (main_arg0 : DevRef τ sig) := by
  rw [ops_split, after_app, arg0B, arg0A]
theorem arg1_eq (V : Valuation τ sig (Elt F)) : after ops V (main_arg1 : DevRef τ sig) = V (main_arg1 : DevRef τ sig) := by
  rw [ops_split, after_app, arg1B, arg1A]
theorem arg2_eq (V : Valuation τ sig (Elt F)) : after ops V (main_arg2 : DevRef τ sig) = V (main_arg2 : DevRef τ sig) := by
  rw [ops_split, after_app, arg2B, arg2A]
theorem arg3_eq (V : Valuation τ sig (Elt F)) : after ops V (main_arg3 : DevRef τ sig) = V (main_arg3 : DevRef τ sig) := by
  rw [ops_split, after_app, arg3B, arg3A]

/-- On every device, for any float values, from any memory with zero counters: every weakly fair execution of
    @main terminates with the result at the linear layer applied to `matOf` of the launch contents of x and the
    index table, and the four arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v6)
        = addf (Host.dotGeneral dot_S2x163842x448_S64x448_S2x163842x64_2_1_01_0_n_n none
              (matOf (m ((c.tc : Thread nD τ).loc main_arg0)) (m ((c.tc : Thread nD τ).loc main_arg3)))
              (m ((c.tc : Thread nD τ).loc main_arg1)))
            (broadcastInDim S2x163842x64 ![0, 1, 2] bcast_S1x1x64_S2x163842x64_0_1_2
              (broadcastInDim S1x1x64 ![2] bcast_S64_S1x1x64_2 (m ((c.tc : Thread nD τ).loc main_arg2))))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c main_v6).trans (out_eq _),
      (h c main_arg0).trans (arg0_eq _),
      (h c main_arg1).trans (arg1_eq _),
      (h c main_arg2).trans (arg2_eq _),
      (h c main_arg3).trans (arg3_eq _)⟩)
    (run_main m ρ)

end Cert.ReferenceIdeal.RefRun

end
-- ==== Proof.RefIsSpec.lean ====
/-
  The reference's last four operations are the linear layer.

  The contraction of a stack of rows `mat` [2, 163842, 448] against the weights `W` [64, 448] over the axis of
  length 448, plus the bias row broadcast along the first two axes, read at an index (b, n, o), is

      Σ_{k < 448} mat[b, n, k] · W[o, k]  +  bias[o]

  which is the shared specification at the weights with their two axes exchanged.
-/
import proofs.«139738_j45500883534541_1_alg».proof.Proof.Gen.ReferenceIdeal
import proofs.«139738_j45500883534541_1_alg».proof.Proof.Spec
import Idealize.ShloMosaic.PureOps.Ideal.Laws
import Idealize.ShloMosaic.Lib.ValueIdx
import Idealize.ShloMosaic.Lib.Pipeline.Value

noncomputable section

open scoped BigOperators

namespace Cert.ReferenceIdeal.RefValue

open Cert.ReferenceIdeal Cert.ReferenceIdeal.Gen Idealize.ShloMosaic Idealize.ShloMosaic.ValueIdx

/-- The contraction's one axis has extent 448: its index is its coordinate. -/
abbrev cE := contrEquiv1 dot_S2x163842x448_S64x448_S2x163842x64_2_1_01_0_n_n 448 rfl rfl

/-- The left operand's index at output (b, n, o) and contraction coordinate c is (b, n, c). -/
theorem lhs_at (b : Fin 2) (n : Fin 163842) (o : Fin 64) (c : Fin 448) :
    dot_S2x163842x448_S64x448_S2x163842x64_2_1_01_0_n_n.lhsIdx (ix3 b n o) (cE.symm c) = ix3 b n c := by
  have c3 := contrEquiv1_symm_val dot_S2x163842x448_S64x448_S2x163842x64_2_1_01_0_n_n 448 rfl rfl c
  funext ax; apply Fin.ext
  match ax with
  | ⟨0, _⟩ => simp [DotDims.lhsIdx, dot_S2x163842x448_S64x448_S2x163842x64_2_1_01_0_n_n]; rfl
  | ⟨1, _⟩ => simp [DotDims.lhsIdx, dot_S2x163842x448_S64x448_S2x163842x64_2_1_01_0_n_n]; rfl
  | ⟨2, _⟩ => simp [DotDims.lhsIdx, dot_S2x163842x448_S64x448_S2x163842x64_2_1_01_0_n_n]; exact c3

/-- The right operand's index there is (o, c). -/
theorem rhs_at (b : Fin 2) (n : Fin 163842) (o : Fin 64) (c : Fin 448) :
    dot_S2x163842x448_S64x448_S2x163842x64_2_1_01_0_n_n.rhsIdx (ix3 b n o) (cE.symm c) = ix2 o c := by
  have c3 := contrEquiv1_symm_val dot_S2x163842x448_S64x448_S2x163842x64_2_1_01_0_n_n 448 rfl rfl c
  funext ax; apply Fin.ext
  match ax with
  | ⟨0, _⟩ => simp [DotDims.rhsIdx, dot_S2x163842x448_S64x448_S2x163842x64_2_1_01_0_n_n]; rfl
  | ⟨1, _⟩ => simp [DotDims.rhsIdx, dot_S2x163842x448_S64x448_S2x163842x64_2_1_01_0_n_n]; exact c3

/-- The contraction at (b, n, o): row (b, n) of `mat` against row o of `W`. -/
theorem dot_at (mat : FVec Ideal S2x163842x448 .f32) (W : FVec Ideal S64x448 .f32) (b : Fin 2) (n : Fin 163842) (o : Fin 64) :
    Host.dotGeneral dot_S2x163842x448_S64x448_S2x163842x64_2_1_01_0_n_n none mat W (ix3 b n o)
      = ∑ c : Fin 448, mat (ix3 b n c) * W (ix2 o c) := by
  show FloatOps.dotGeneral _ none _ mat W (ix3 b n o) = _
  rw [Ideal.dotGeneral_apply, ← Equiv.sum_comp cE.symm]
  refine Finset.sum_congr rfl fun c _ => ?_
  rw [lhs_at, rhs_at]

/-- The bias broadcast twice, at (b, n, o), is the bias at o. -/
theorem bias_at (bias : FVec Ideal S64 .f32) (b : Fin 2) (n : Fin 163842) (o : Fin 64) :
    broadcastInDim S2x163842x64 ![0, 1, 2] bcast_S1x1x64_S2x163842x64_0_1_2
      (broadcastInDim S1x1x64 ![2] bcast_S64_S1x1x64_2 bias) (ix3 b n o) = bias (ix1 o) := by
  rw [broadcastInDim_apply ![0, 1, 2] bcast_S1x1x64_S2x163842x64_0_1_2 _ (ix3 b n o) (ix3 (0 : Fin 1) (0 : Fin 1) o) (by
    intro a; match a with
    | ⟨0, _⟩ => rfl
    | ⟨1, _⟩ => rfl
    | ⟨2, _⟩ => rfl)]
  rw [broadcastInDim_apply ![2] bcast_S64_S1x1x64_2 bias (ix3 (0 : Fin 1) (0 : Fin 1) o) (ix1 o) (by
    intro a; match a with
    | ⟨0, _⟩ => rfl)]

/-- The reference's last four operations compute the shared specification, the weights read with their two
    axes exchanged. -/
theorem ref_is_spec (mat : FVec Ideal S2x163842x448 .f32) (W : FVec Ideal S64x448 .f32) (b : FVec Ideal S64 .f32) :
    addf (Host.dotGeneral dot_S2x163842x448_S64x448_S2x163842x64_2_1_01_0_n_n none mat W)
        (broadcastInDim S2x163842x64 ![0, 1, 2] bcast_S1x1x64_S2x163842x64_0_1_2 (broadcastInDim S1x1x64 ![2] bcast_S64_S1x1x64_2 b))
      = Cert.Spec.linOut mat (fun j => W (ValueIdx.ix2 (j 1) (j 0))) b := by
  funext i
  obtain ⟨p, n, o, rfl⟩ : ∃ (p : Fin 2) (n : Fin 163842) (o : Fin 64), i = ix3 p n o := ⟨i 0, i 1, i 2, eq_ix3 i⟩
  rw [Cert.Spec.linOut_apply, addf_apply, dot_at, bias_at]

end Cert.ReferenceIdeal.RefValue

end
-- ==== Proof.PrefixSame.lean ====
import proofs.«139738_j45500883534541_1_alg».proof.Proof.RefRun
import proofs.«139738_j45500883534541_1_alg».proof.Proof.KernelPrefix

noncomputable section

namespace Cert.PrefixSame

open Idealize.ShloMosaic

variable {F : FTy → Type} [FloatOps F]

attribute [local irreducible] Host.gather Host.reduce in
/-- The two programs build the matrix they multiply by the same operations on the same shapes: the
    two terms differ only in which copy of each shape relation they cite, and a relation's evidence
    does not enter the value. The gather and the mask's reduction are compared by their arguments,
    never opened. -/
theorem matOf_same (x : (⟨Cert.ReferenceIdeal.S2x163842x64, .f32⟩ : BufTy).Contents (Elt F))
    (idx : (⟨Cert.ReferenceIdeal.S1146894, .i32⟩ : BufTy).Contents (Elt F)) :
    Cert.ReferenceIdeal.RefRun.matOf (F := F) x idx = Cert.KernelIdeal.Prefix.matOf (F := F) x idx := by
  unfold Cert.ReferenceIdeal.RefRun.matOf Cert.KernelIdeal.Prefix.matOf Cert.KernelIdeal.Prefix.takeOf
    Cert.KernelIdeal.Prefix.inRange Cert.KernelIdeal.Prefix.idxCol Cert.KernelIdeal.Prefix.wrapIdx
  rfl

/-- info: 'Cert.PrefixSame.matOf_same' depends on axioms: [propext, Classical.choice, Quot.sound] -/
#guard_msgs in #print axioms matOf_same

end Cert.PrefixSame

end
-- ==== Proof.lean ====
/-
  The five claims about the linear layer over gathered neighbour rows.

  Both programs build the same stack of rows `mat` from the arguments — the features transposed, gathered along the
  vertex axis at the neighbour indices (negative indices wrapped, out-of-range ones filled), and regrouped into rows of
  448 — and then compute, for each batch b, row n and output column o,

      Σ_{k < 448} mat[b, n, k] · W[o, k]  +  bias[o].

  The kernel does so block by block of 4096 rows over a grid of 2 × 41 points against the transposed weights, starting
  each sum from zero; the reference does so in one contraction of the whole stack.  On the extended reals the two are
  the same function of the arguments, entry by entry: 0 + s = s and the weights' transpose read at (k, o) is W at
  (o, k).  No operation changes the format of a number in a way the extended reals see, so the idealized kernel is
  the kernel's own text, and nothing is asked of the inputs beyond what the claims assume.
-/
import proofs.«139738_j45500883534541_1_alg».proof.Defs
import proofs.«139738_j45500883534541_1_alg».proof.Proof.Gen.Kernel
import proofs.«139738_j45500883534541_1_alg».proof.Proof.Gen.KernelIdeal
import proofs.«139738_j45500883534541_1_alg».proof.Proof.Gen.ReferenceIdeal
import proofs.«139738_j45500883534541_1_alg».proof.Proof.Gen.Pre_finite_inputs
import proofs.«139738_j45500883534541_1_alg».proof.Proof.RunK
import proofs.«139738_j45500883534541_1_alg».proof.Proof.ValueI
import proofs.«139738_j45500883534541_1_alg».proof.Proof.RefRun
import proofs.«139738_j45500883534541_1_alg».proof.Proof.RefIsSpec
import proofs.«139738_j45500883534541_1_alg».proof.Proof.PrefixSame
import Idealize.ShloMosaic.Adequacy
import Idealize.ShloMosaic.Init

noncomputable section

namespace Cert.Proof

open Idealize.ShloMosaic Idealize.ShloMosaic.TcCoe Idealize.SL.Sem

/-- The kernel as printed runs to the end, faults nowhere and leaves its arguments unchanged. -/
theorem frame_k : Cert.frame_Kernel := fun m ρ _ => Cert.Kernel.Run.frame (F := Bits) m ρ

/-- So does the idealized kernel. -/
theorem frame_ki : Cert.frame_KernelIdeal := fun m ρ _ =>
  Cert.KernelIdeal.Gen.frame_of m ρ (Cert.KernelIdeal.Run.dats m) (fun _ _ => rfl) (Cert.KernelIdeal.Run.run_main m ρ)

/-- The reference is a straight line of host operations: it runs to the end and writes none of its arguments. -/
theorem frame_ri : Cert.frame_ReferenceIdeal := fun m ρ _ =>
  (θ_run Cert.ReferenceIdeal.defs _ _).mono (fun _ h c => (h c).2) (Cert.ReferenceIdeal.RefRun.run (F := Ideal) m ρ)

/-- The idealization rewrote nothing. -/
theorem preserves : Cert.preserves_Kernel_KernelIdeal := trivial

/-- From memories that agree on the arguments both programs end with the linear layer of the gathered rows: the
    kernel's result array by its run block by block, the reference's by reading its contraction and its broadcast bias
    at an entry; the two stacks of rows are one function of the arguments. -/
theorem algebraic : Cert.algebraic_KernelIdeal_ReferenceIdeal := by
  intro m ρ m' ρ' _ hagree
  refine ⟨fun c => Cert.KernelIdeal.Value.out m c, Cert.KernelIdeal.Value.run m ρ, ?_⟩
  refine (θ_run Cert.ReferenceIdeal.defs _ _).mono (fun _ h c => ⟨(h c).1.trans ?_, (h c).2⟩)
    (Cert.ReferenceIdeal.RefRun.run (F := Ideal) m' ρ')
  rw [Cert.ReferenceIdeal.RefValue.ref_is_spec, Cert.PrefixSame.matOf_same, (hagree c).1, (hagree c).2.1, (hagree c).2.2.1,
    (hagree c).2.2.2]
  rfl

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
